-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x384x8x96x96 : Shape := ⟨5, ![2, 384, 8, 96, 96]⟩
abbrev S6x1x1 : Shape := ⟨3, ![6, 1, 1]⟩
abbrev S_ : Shape := ⟨0, ![]⟩

class Facts : Prop where
  bcast_S_S2x384x8x96x96 : S_.BroadcastsInDim S2x384x8x96x96 (![] : Fin 0 → Fin S2x384x8x96x96.rank)
  reducesTo_S2x384x8x96x96_S_d0_1_2_3_4 : S2x384x8x96x96.ReducesTo [0, 1, 2, 3, 4] S_
  h_S_ : 0 < S_.numel
  bcast_S_S6x1x1 : S_.BroadcastsInDim S6x1x1 (![] : Fin 0 → Fin S6x1x1.rank)
  reducesTo_S6x1x1_S_d0_1_2 : S6x1x1.ReducesTo [0, 1, 2] S_

variable [Facts]

def fn_part1 {F : FTy → Type} [FloatOps F] (main_arg4 : FVec F S6x1x1 .f32) (main_v13 : IVec S_ 1) (main_v16 : IVec S6x1x1 1) : IVec S_ 1 :=
  let main_c_5 : IVec S_ 1 := constantI S_ 1 1#1
  let main_v17 : IVec S_ 1 := (fun x v => Host.reduce IntOp.andi x v reducesTo_S6x1x1_S_d0_1_2 h_S_) main_v16 main_c_5
  let main_v18 : IVec S_ 1 := andi main_v13 main_v17
  let main_v19 : FVec F S6x1x1 .f32 := Host.absf main_arg4
  let main_cst_6 : FVec F S_ .f32 := constant S_ .f32 0x7F800000#32
  let main_v20 : FVec F S6x1x1 .f32 := broadcastInDim S6x1x1 ![] bcast_S_S6x1x1 main_cst_6
  let main_v21 : IVec S6x1x1 1 := cmpf .olt main_v19 main_v20
  let main_c_7 : IVec S_ 1 := constantI S_ 1 1#1
  let main_v22 : IVec S_ 1 := (fun x v => Host.reduce IntOp.andi x v reducesTo_S6x1x1_S_d0_1_2 h_S_) main_v21 main_c_7
  let main_v23 : IVec S_ 1 := andi main_v18 main_v22
  main_v23

def fn {F : FTy → Type} [FloatOps F] (main_arg0 : FVec F S2x384x8x96x96 .f32) (main_arg1 : FVec F S2x384x8x96x96 .f32) (main_arg2 : FVec F S2x384x8x96x96 .f32) (main_arg3 : FVec F S6x1x1 .f32) (main_arg4 : FVec F S6x1x1 .f32) : IVec S_ 1 :=
  let main_v0 : FVec F S2x384x8x96x96 .f32 := Host.absf main_arg0
  let main_cst : FVec F S_ .f32 := constant S_ .f32 0x7F800000#32
  let main_v1 : FVec F S2x384x8x96x96 .f32 := broadcastInDim S2x384x8x96x96 ![] bcast_S_S2x384x8x96x96 main_cst
  let main_v2 : IVec S2x384x8x96x96 1 := cmpf .olt main_v0 main_v1
  let main_c : IVec S_ 1 := constantI S_ 1 1#1
  let main_v3 : IVec S_ 1 := (fun x v => Host.reduce IntOp.andi x v reducesTo_S2x384x8x96x96_S_d0_1_2_3_4 h_S_) main_v2 main_c
  let main_v4 : FVec F S2x384x8x96x96 .f32 := Host.absf main_arg1
  let main_cst_0 : FVec F S_ .f32 := constant S_ .f32 0x7F800000#32
  let main_v5 : FVec F S2x384x8x96x96 .f32 := broadcastInDim S2x384x8x96x96 ![] bcast_S_S2x384x8x96x96 main_cst_0
  let main_v6 : IVec S2x384x8x96x96 1 := cmpf .olt main_v4 main_v5
  let main_c_1 : IVec S_ 1 := constantI S_ 1 1#1
  let main_v7 : IVec S_ 1 := (fun x v => Host.reduce IntOp.andi x v reducesTo_S2x384x8x96x96_S_d0_1_2_3_4 h_S_) main_v6 main_c_1
  let main_v8 : IVec S_ 1 := andi main_v3 main_v7
  let main_v9 : FVec F S2x384x8x96x96 .f32 := Host.absf main_arg2
  let main_cst_2 : FVec F S_ .f32 := constant S_ .f32 0x7F800000#32
  let main_v10 : FVec F S2x384x8x96x96 .f32 := broadcastInDim S2x384x8x96x96 ![] bcast_S_S2x384x8x96x96 main_cst_2
  let main_v11 : IVec S2x384x8x96x96 1 := cmpf .olt main_v9 main_v10
  let main_c_3 : IVec S_ 1 := constantI S_ 1 1#1
  let main_v12 : IVec S_ 1 := (fun x v => Host.reduce IntOp.andi x v reducesTo_S2x384x8x96x96_S_d0_1_2_3_4 h_S_) main_v11 main_c_3
  let main_v13 : IVec S_ 1 := andi main_v8 main_v12
  let main_v14 : FVec F S6x1x1 .f32 := Host.absf main_arg3
  let main_cst_4 : FVec F S_ .f32 := constant S_ .f32 0x7F800000#32
  let main_v15 : FVec F S6x1x1 .f32 := broadcastInDim S6x1x1 ![] bcast_S_S6x1x1 main_cst_4
  let main_v16 : IVec S6x1x1 1 := cmpf .olt main_v14 main_v15
  fn_part1 (F := F) main_arg4 main_v13 main_v16
-- ==== Kernel.lean ====
abbrev S2x384x8x96x96 : Shape := ⟨5, ![2, 384, 8, 96, 96]⟩
abbrev S6x1x1 : Shape := ⟨3, ![6, 1, 1]⟩
abbrev S2x6x64x8x24x4x12x8 : Shape := ⟨8, ![2, 6, 64, 8, 24, 4, 12, 8]⟩
abbrev S2x8x24x12x6x4x8x64 : Shape := ⟨8, ![2, 8, 24, 12, 6, 4, 8, 64]⟩
abbrev S4608x6x32x64 : Shape := ⟨4, ![4608, 6, 32, 64]⟩
abbrev S2x6x64x8x96x96 : Shape := ⟨6, ![2, 6, 64, 8, 96, 96]⟩
abbrev S2x96x96x6x8x64 : Shape := ⟨6, ![2, 96, 96, 6, 8, 64]⟩
abbrev S18432x6x8x64 : Shape := ⟨4, ![18432, 6, 8, 64]⟩
abbrev S_ : Shape := ⟨0, ![]⟩
abbrev S36x6x32x64 : Shape := ⟨4, ![36, 6, 32, 64]⟩
abbrev S1x6x1x1 : Shape := ⟨4, ![1, 6, 1, 1]⟩
abbrev S36x6x32 : Shape := ⟨3, ![36, 6, 32]⟩
abbrev S36x6x32x1 : Shape := ⟨4, ![36, 6, 32, 1]⟩
abbrev S216x32x64 : Shape := ⟨3, ![216, 32, 64]⟩
abbrev S216x32x32 : Shape := ⟨3, ![216, 32, 32]⟩
abbrev S36x6x32x32 : Shape := ⟨4, ![36, 6, 32, 32]⟩
abbrev S2x24x4x12x8x6x8x64 : Shape := ⟨8, ![2, 24, 4, 12, 8, 6, 8, 64]⟩
abbrev S144x6x8x64 : Shape := ⟨4, ![144, 6, 8, 64]⟩
abbrev S144x6x8 : Shape := ⟨3, ![144, 6, 8]⟩
abbrev S144x6x8x1 : Shape := ⟨4, ![144, 6, 8, 1]⟩
abbrev S864x8x64 : Shape := ⟨3, ![864, 8, 64]⟩
abbrev S864x8x8 : Shape := ⟨3, ![864, 8, 8]⟩
abbrev S144x6x8x8 : Shape := ⟨4, ![144, 6, 8, 8]⟩

abbrev nBuf : Space → Nat
  | .hbm => 36
  | .vmem => 18
  | .smem => 0
  | _ => 0

abbrev bufTy : (tb : Table) → Fin (tcTables nBuf tb) → BufTy
  | .hbm, ⟨0, _⟩ => ⟨S2x384x8x96x96, .f32⟩
  | .hbm, ⟨1, _⟩ => ⟨S2x384x8x96x96, .f32⟩
  | .hbm, ⟨2, _⟩ => ⟨S2x384x8x96x96, .f32⟩
  | .hbm, ⟨3, _⟩ => ⟨S6x1x1, .f32⟩
  | .hbm, ⟨4, _⟩ => ⟨S6x1x1, .f32⟩
  | .hbm, ⟨5, _⟩ => ⟨S2x6x64x8x24x4x12x8, .f32⟩
  | .hbm, ⟨6, _⟩ => ⟨S2x8x24x12x6x4x8x64, .f32⟩
  | .hbm, ⟨7, _⟩ => ⟨S4608x6x32x64, .f32⟩
  | .hbm, ⟨8, _⟩ => ⟨S2x6x64x8x24x4x12x8, .f32⟩
  | .hbm, ⟨9, _⟩ => ⟨S2x8x24x12x6x4x8x64, .f32⟩
  | .hbm, ⟨10, _⟩ => ⟨S4608x6x32x64, .f32⟩
  | .hbm, ⟨11, _⟩ => ⟨S2x6x64x8x24x4x12x8, .f32⟩
  | .hbm, ⟨12, _⟩ => ⟨S2x8x24x12x6x4x8x64, .f32⟩
  | .hbm, ⟨13, _⟩ => ⟨S4608x6x32x64, .f32⟩
  | .hbm, ⟨14, _⟩ => ⟨S2x6x64x8x96x96, .f32⟩
  | .hbm, ⟨15, _⟩ => ⟨S2x96x96x6x8x64, .f32⟩
  | .hbm, ⟨16, _⟩ => ⟨S18432x6x8x64, .f32⟩
  | .hbm, ⟨17, _⟩ => ⟨S2x6x64x8x96x96, .f32⟩
  | .hbm, ⟨18, _⟩ => ⟨S2x96x96x6x8x64, .f32⟩
  | .hbm, ⟨19, _⟩ => ⟨S18432x6x8x64, .f32⟩
  | .hbm, ⟨20, _⟩ => ⟨S_, .f32⟩
  | .hbm, ⟨21, _⟩ => ⟨S6x1x1, .f32⟩
  | .hbm, ⟨22, _⟩ => ⟨S6x1x1, .f32⟩
  | .hbm, ⟨23, _⟩ => ⟨S6x1x1, .f32⟩
  | .hbm, ⟨24, _⟩ => ⟨S_, .f32⟩
  | .hbm, ⟨25, _⟩ => ⟨S6x1x1, .f32⟩
  | .hbm, ⟨26, _⟩ => ⟨S6x1x1, .f32⟩
  | .hbm, ⟨27, _⟩ => ⟨S6x1x1, .f32⟩
  | .hbm, ⟨28, _⟩ => ⟨S4608x6x32x64, .f32⟩
  | .hbm, ⟨29, _⟩ => ⟨S2x8x24x12x6x4x8x64, .f32⟩
  | .hbm, ⟨30, _⟩ => ⟨S2x24x4x12x8x6x8x64, .f32⟩
  | .hbm, ⟨31, _⟩ => ⟨S18432x6x8x64, .f32⟩
  | .hbm, ⟨32, _⟩ => ⟨S18432x6x8x64, .f32⟩
  | .hbm, ⟨33, _⟩ => ⟨S2x24x4x12x8x6x8x64, .f32⟩
  | .hbm, ⟨34, _⟩ => ⟨S2x6x64x8x24x4x12x8, .f32⟩
  | .hbm, ⟨35, _⟩ => ⟨S2x384x8x96x96, .f32⟩
  | .local _ .vmem, ⟨0, _⟩ => ⟨S36x6x32x64, .f32⟩
  | .local _ .vmem, ⟨1, _⟩ => ⟨S36x6x32x64, .f32⟩
  | .local _ .vmem, ⟨2, _⟩ => ⟨S36x6x32x64, .f32⟩
  | .local _ .vmem, ⟨3, _⟩ => ⟨S36x6x32x64, .f32⟩
  | .local _ .vmem, ⟨4, _⟩ => ⟨S36x6x32x64, .f32⟩
  | .local _ .vmem, ⟨5, _⟩ => ⟨S36x6x32x64, .f32⟩
  | .local _ .vmem, ⟨6, _⟩ => ⟨S6x1x1, .f32⟩
  | .local _ .vmem, ⟨7, _⟩ => ⟨S36x6x32x64, .f32⟩
  | .local _ .vmem, ⟨8, _⟩ => ⟨S36x6x32x64, .f32⟩
  | .local _ .vmem, ⟨9, _⟩ => ⟨S144x6x8x64, .f32⟩
  | .local _ .vmem, ⟨10, _⟩ => ⟨S144x6x8x64, .f32⟩
  | .local _ .vmem, ⟨11, _⟩ => ⟨S144x6x8x64, .f32⟩
  | .local _ .vmem, ⟨12, _⟩ => ⟨S144x6x8x64, .f32⟩
  | .local _ .vmem, ⟨13, _⟩ => ⟨S144x6x8x64, .f32⟩
  | .local _ .vmem, ⟨14, _⟩ => ⟨S144x6x8x64, .f32⟩
  | .local _ .vmem, ⟨15, _⟩ => ⟨S6x1x1, .f32⟩
  | .local _ .vmem, ⟨16, _⟩ => ⟨S144x6x8x64, .f32⟩
  | .local _ .vmem, ⟨17, _⟩ => ⟨S144x6x8x64, .f32⟩
  | _, _ => ⟨S2x384x8x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S36x6x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S36x6x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S36x6x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S36x6x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S144x6x8x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S144x6x8x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S144x6x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S144x6x8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S2x384x8x96x96_S2x6x64x8x24x4x12x8 : S2x384x8x96x96.ShapeCasts S2x6x64x8x24x4x12x8
  transposes_S2x6x64x8x24x4x12x8_S2x8x24x12x6x4x8x64_0_3_4_6_1_5_7_2 : S2x6x64x8x24x4x12x8.Transposes [0, 3, 4, 6, 1, 5, 7, 2] S2x8x24x12x6x4x8x64
  shapeCasts_S2x8x24x12x6x4x8x64_S4608x6x32x64 : S2x8x24x12x6x4x8x64.ShapeCasts S4608x6x32x64
  shapeCasts_S2x384x8x96x96_S2x6x64x8x96x96 : S2x384x8x96x96.ShapeCasts S2x6x64x8x96x96
  transposes_S2x6x64x8x96x96_S2x96x96x6x8x64_0_4_5_1_3_2 : S2x6x64x8x96x96.Transposes [0, 4, 5, 1, 3, 2] S2x96x96x6x8x64
  shapeCasts_S2x96x96x6x8x64_S18432x6x8x64 : S2x96x96x6x8x64.ShapeCasts S18432x6x8x64
  bcast_S_S6x1x1 : S_.BroadcastsInDim S6x1x1 (![] : Fin 0 → Fin S6x1x1.rank)
  inb_S36x6x32x64_S36x6x32x64_0_0_0_0 : ∀ a, (![0, 0, 0, 0] : Fin 4 → Nat) a + S36x6x32x64.size a ≤ S36x6x32x64.size a
  h_S36x6x32x64 : 0 < S36x6x32x64.numel
  shapeCasts_S36x6x32x64_S36x6x32x64 : S36x6x32x64.ShapeCasts S36x6x32x64
  inb_S6x1x1_S6x1x1_0_0_0 : ∀ a, (![0, 0, 0] : Fin 3 → Nat) a + S6x1x1.size a ≤ S6x1x1.size a
  h_S6x1x1 : 0 < S6x1x1.numel
  shapeCasts_S6x1x1_S6x1x1 : S6x1x1.ShapeCasts S6x1x1
  shapeCasts_S6x1x1_S1x6x1x1 : S6x1x1.ShapeCasts S1x6x1x1
  reduces_S36x6x32x64_S36x6x32 : S36x6x32x64.Reduces [3] S36x6x32
  shapeCasts_S36x6x32_S36x6x32x1 : S36x6x32.ShapeCasts S36x6x32x1
  broadcasts_S36x6x32x1_S36x6x32x64 : S36x6x32x1.Broadcasts S36x6x32x64
  shapeCasts_S36x6x32x64_S216x32x64 : S36x6x32x64.ShapeCasts S216x32x64
  bitsLt_bf16_f32 : FTy.bits .bf16 < FTy.bits .f32
  shapeCasts_S216x32x32_S36x6x32x32 : S216x32x32.ShapeCasts S36x6x32x32
  broadcasts_S1x6x1x1_S36x6x32x32 : S1x6x1x1.Broadcasts S36x6x32x32
  reduces_S36x6x32x32_S36x6x32 : S36x6x32x32.Reduces [3] S36x6x32
  broadcasts_S36x6x32x1_S36x6x32x32 : S36x6x32x1.Broadcasts S36x6x32x32
  shapeCasts_S36x6x32x32_S216x32x32 : S36x6x32x32.ShapeCasts S216x32x32
  shapeCasts_S216x32x64_S36x6x32x64 : S216x32x64.ShapeCasts S36x6x32x64
  shapeCasts_S4608x6x32x64_S2x8x24x12x6x4x8x64 : S4608x6x32x64.ShapeCasts S2x8x24x12x6x4x8x64
  transposes_S2x8x24x12x6x4x8x64_S2x24x4x12x8x6x8x64_0_2_5_3_6_4_1_7 : S2x8x24x12x6x4x8x64.Transposes [0, 2, 5, 3, 6, 4, 1, 7] S2x24x4x12x8x6x8x64
  shapeCasts_S2x24x4x12x8x6x8x64_S18432x6x8x64 : S2x24x4x12x8x6x8x64.ShapeCasts S18432x6x8x64
  inb_S144x6x8x64_S144x6x8x64_0_0_0_0 : ∀ a, (![0, 0, 0, 0] : Fin 4 → Nat) a + S144x6x8x64.size a ≤ S144x6x8x64.size a
  h_S144x6x8x64 : 0 < S144x6x8x64.numel
  shapeCasts_S144x6x8x64_S144x6x8x64 : S144x6x8x64.ShapeCasts S144x6x8x64
  reduces_S144x6x8x64_S144x6x8 : S144x6x8x64.Reduces [3] S144x6x8
  shapeCasts_S144x6x8_S144x6x8x1 : S144x6x8.ShapeCasts S144x6x8x1
  broadcasts_S144x6x8x1_S144x6x8x64 : S144x6x8x1.Broadcasts S144x6x8x64
  shapeCasts_S144x6x8x64_S864x8x64 : S144x6x8x64.ShapeCasts S864x8x64
  shapeCasts_S864x8x8_S144x6x8x8 : S864x8x8.ShapeCasts S144x6x8x8
  broadcasts_S1x6x1x1_S144x6x8x8 : S1x6x1x1.Broadcasts S144x6x8x8
  reduces_S144x6x8x8_S144x6x8 : S144x6x8x8.Reduces [3] S144x6x8
  broadcasts_S144x6x8x1_S144x6x8x8 : S144x6x8x1.Broadcasts S144x6x8x8
  shapeCasts_S144x6x8x8_S864x8x8 : S144x6x8x8.ShapeCasts S864x8x8
  shapeCasts_S864x8x64_S144x6x8x64 : S864x8x64.ShapeCasts S144x6x8x64
  shapeCasts_S18432x6x8x64_S2x24x4x12x8x6x8x64 : S18432x6x8x64.ShapeCasts S2x24x4x12x8x6x8x64
  transposes_S2x24x4x12x8x6x8x64_S2x6x64x8x24x4x12x8_0_5_7_6_1_2_3_4 : S2x24x4x12x8x6x8x64.Transposes [0, 5, 7, 6, 1, 2, 3, 4] S2x6x64x8x24x4x12x8
  shapeCasts_S2x6x64x8x24x4x12x8_S2x384x8x96x96 : S2x6x64x8x24x4x12x8.ShapeCasts S2x384x8x96x96
  dot_S216x32x64_S216x32x64_S216x32x32_2_2_1_1_0_0_wf : DotDims.WF S216x32x64 S216x32x64 S216x32x32 [2] [2] [1] [1] [0] [0]
  dot_S216x32x32_S216x32x64_S216x32x64_2_1_1_2_0_0_wf : DotDims.WF S216x32x32 S216x32x64 S216x32x64 [2] [1] [1] [2] [0] [0]
  dot_S864x8x64_S864x8x64_S864x8x8_2_2_1_1_0_0_wf : DotDims.WF S864x8x64 S864x8x64 S864x8x8 [2] [2] [1] [1] [0] [0]
  dot_S864x8x8_S864x8x64_S864x8x64_2_1_1_2_0_0_wf : DotDims.WF S864x8x8 S864x8x64 S864x8x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S36x6x32x64.size a ≤ S4608x6x32x64.size a
  hwx0_0 : ∀ i : grid0.Coords, EltTy.bits .f32 = 32 ∨ (Rect.block (s := S4608x6x32x64) S36x6x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S36x6x32x64.size a ≤ S4608x6x32x64.size a
  hwx0_1 : ∀ i : grid0.Coords, EltTy.bits .f32 = 32 ∨ (Rect.block (s := S4608x6x32x64) S36x6x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S36x6x32x64.size a ≤ S4608x6x32x64.size a
  hwx0_2 : ∀ i : grid0.Coords, EltTy.bits .f32 = 32 ∨ (Rect.block (s := S4608x6x32x64) S36x6x32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x1x1.size a ≤ S6x1x1.size a
  hwx0_3 : ∀ i : grid0.Coords, EltTy.bits .f32 = 32 ∨ (Rect.block (s := S6x1x1) S6x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S36x6x32x64.size a ≤ S4608x6x32x64.size a
  hwx0_4 : ∀ i : grid0.Coords, EltTy.bits .f32 = 32 ∨ (Rect.block (s := S4608x6x32x64) S36x6x32x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S144x6x8x64.size a ≤ S18432x6x8x64.size a
  hwx1_0 : ∀ i : grid1.Coords, EltTy.bits .f32 = 32 ∨ (Rect.block (s := S18432x6x8x64) S144x6x8x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S144x6x8x64.size a ≤ S18432x6x8x64.size a
  hwx1_1 : ∀ i : grid1.Coords, EltTy.bits .f32 = 32 ∨ (Rect.block (s := S18432x6x8x64) S144x6x8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S144x6x8x64.size a ≤ S18432x6x8x64.size a
  hwx1_2 : ∀ i : grid1.Coords, EltTy.bits .f32 = 32 ∨ (Rect.block (s := S18432x6x8x64) S144x6x8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x1x1.size a ≤ S6x1x1.size a
  hwx1_3 : ∀ i : grid1.Coords, EltTy.bits .f32 = 32 ∨ (Rect.block (s := S6x1x1) S6x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S144x6x8x64.size a ≤ S18432x6x8x64.size a
  hwx1_4 : ∀ i : grid1.Coords, EltTy.bits .f32 = 32 ∨ (Rect.block (s := S18432x6x8x64) S144x6x8x64.size (cc1_transform_4 i) (hinb1_4 i)).WholeWords (EltTy.packing .f32)

variable [Facts₀]

def dot_S216x32x64_S216x32x64_S216x32x32_2_2_1_1_0_0 : DotDims S216x32x64 S216x32x64 S216x32x32 where
  lhsContracting := [2]
  rhsContracting := [2]
  lhsNonContracting := [1]
  rhsNonContracting := [1]
  lhsBatch := [0]
  rhsBatch := [0]
  wf := dot_S216x32x64_S216x32x64_S216x32x32_2_2_1_1_0_0_wf
def dot_S216x32x32_S216x32x64_S216x32x64_2_1_1_2_0_0 : DotDims S216x32x32 S216x32x64 S216x32x64 where
  lhsContracting := [2]
  rhsContracting := [1]
  lhsNonContracting := [1]
  rhsNonContracting := [2]
  lhsBatch := [0]
  rhsBatch := [0]
  wf := dot_S216x32x32_S216x32x64_S216x32x64_2_1_1_2_0_0_wf
def dot_S864x8x64_S864x8x64_S864x8x8_2_2_1_1_0_0 : DotDims S864x8x64 S864x8x64 S864x8x8 where
  lhsContracting := [2]
  rhsContracting := [2]
  lhsNonContracting := [1]
  rhsNonContracting := [1]
  lhsBatch := [0]
  rhsBatch := [0]
  wf := dot_S864x8x64_S864x8x64_S864x8x8_2_2_1_1_0_0_wf
def dot_S864x8x8_S864x8x64_S864x8x64_2_1_1_2_0_0 : DotDims S864x8x8 S864x8x64 S864x8x64 where
  lhsContracting := [2]
  rhsContracting := [1]
  lhsNonContracting := [1]
  rhsNonContracting := [2]
  lhsBatch := [0]
  rhsBatch := [0]
  wf := dot_S864x8x8_S864x8x64_S864x8x64_2_1_1_2_0_0_wf

abbrev win0_0 : Pipeline.Window sig grid0 :=
  Pipeline.Window.ofSpec (Memref.whole main_v2) S36x6x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S36x6x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S36x6x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S6x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S36x6x32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S144x6x8x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S144x6x8x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S144x6x8x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S6x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S144x6x8x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x384x8x96x96 : Shape := ⟨5, ![2, 384, 8, 96, 96]⟩
abbrev S6x1x1 : Shape := ⟨3, ![6, 1, 1]⟩
abbrev S2x6x64x8x24x4x12x8 : Shape := ⟨8, ![2, 6, 64, 8, 24, 4, 12, 8]⟩
abbrev S2x8x24x12x6x4x8x64 : Shape := ⟨8, ![2, 8, 24, 12, 6, 4, 8, 64]⟩
abbrev S4608x6x32x64 : Shape := ⟨4, ![4608, 6, 32, 64]⟩
abbrev S2x6x64x8x96x96 : Shape := ⟨6, ![2, 6, 64, 8, 96, 96]⟩
abbrev S2x96x96x6x8x64 : Shape := ⟨6, ![2, 96, 96, 6, 8, 64]⟩
abbrev S18432x6x8x64 : Shape := ⟨4, ![18432, 6, 8, 64]⟩
abbrev S_ : Shape := ⟨0, ![]⟩
abbrev S4608x6x32 : Shape := ⟨3, ![4608, 6, 32]⟩
abbrev S4608x6x32x1 : Shape := ⟨4, ![4608, 6, 32, 1]⟩
abbrev S4608x6x32x32 : Shape := ⟨4, ![4608, 6, 32, 32]⟩
abbrev S1x6x1x1 : Shape := ⟨4, ![1, 6, 1, 1]⟩
abbrev S18432x6x8 : Shape := ⟨3, ![18432, 6, 8]⟩
abbrev S18432x6x8x1 : Shape := ⟨4, ![18432, 6, 8, 1]⟩
abbrev S18432x6x8x8 : Shape := ⟨4, ![18432, 6, 8, 8]⟩
abbrev S2x24x4x12x8x6x8x64 : Shape := ⟨8, ![2, 24, 4, 12, 8, 6, 8, 64]⟩

abbrev nBuf : Space → Nat
  | .hbm => 112
  | .vmem => 0
  | .smem => 0
  | _ => 0

abbrev bufTy : (tb : Table) → Fin (tcTables nBuf tb) → BufTy
  | .hbm, ⟨0, _⟩ => ⟨S2x384x8x96x96, .f32⟩
  | .hbm, ⟨1, _⟩ => ⟨S2x384x8x96x96, .f32⟩
  | .hbm, ⟨2, _⟩ => ⟨S2x384x8x96x96, .f32⟩
  | .hbm, ⟨3, _⟩ => ⟨S6x1x1, .f32⟩
  | .hbm, ⟨4, _⟩ => ⟨S6x1x1, .f32⟩
  | .hbm, ⟨5, _⟩ => ⟨S2x6x64x8x24x4x12x8, .f32⟩
  | .hbm, ⟨6, _⟩ => ⟨S2x8x24x12x6x4x8x64, .f32⟩
  | .hbm, ⟨7, _⟩ => ⟨S4608x6x32x64, .f32⟩
  | .hbm, ⟨8, _⟩ => ⟨S2x6x64x8x24x4x12x8, .f32⟩
  | .hbm, ⟨9, _⟩ => ⟨S2x8x24x12x6x4x8x64, .f32⟩
  | .hbm, ⟨10, _⟩ => ⟨S4608x6x32x64, .f32⟩
  | .hbm, ⟨11, _⟩ => ⟨S2x6x64x8x24x4x12x8, .f32⟩
  | .hbm, ⟨12, _⟩ => ⟨S2x8x24x12x6x4x8x64, .f32⟩
  | .hbm, ⟨13, _⟩ => ⟨S4608x6x32x64, .f32⟩
  | .hbm, ⟨14, _⟩ => ⟨S2x6x64x8x96x96, .f32⟩
  | .hbm, ⟨15, _⟩ => ⟨S2x96x96x6x8x64, .f32⟩
  | .hbm, ⟨16, _⟩ => ⟨S18432x6x8x64, .f32⟩
  | .hbm, ⟨17, _⟩ => ⟨S2x6x64x8x96x96, .f32⟩
  | .hbm, ⟨18, _⟩ => ⟨S2x96x96x6x8x64, .f32⟩
  | .hbm, ⟨19, _⟩ => ⟨S18432x6x8x64, .f32⟩
  | .hbm, ⟨20, _⟩ => ⟨S_, .f32⟩
  | .hbm, ⟨21, _⟩ => ⟨S6x1x1, .f32⟩
  | .hbm, ⟨22, _⟩ => ⟨S6x1x1, .f32⟩
  | .hbm, ⟨23, _⟩ => ⟨S6x1x1, .f32⟩
  | .hbm, ⟨24, _⟩ => ⟨S_, .f32⟩
  | .hbm, ⟨25, _⟩ => ⟨S6x1x1, .f32⟩
  | .hbm, ⟨26, _⟩ => ⟨S6x1x1, .f32⟩
  | .hbm, ⟨27, _⟩ => ⟨S6x1x1, .f32⟩
  | .hbm, ⟨28, _⟩ => ⟨S4608x6x32x64, .f32⟩
  | .hbm, ⟨29, _⟩ => ⟨S_, .f32⟩
  | .hbm, ⟨30, _⟩ => ⟨S4608x6x32, .f32⟩
  | .hbm, ⟨31, _⟩ => ⟨S4608x6x32x1, .f32⟩
  | .hbm, ⟨32, _⟩ => ⟨S4608x6x32x1, .f32⟩
  | .hbm, ⟨33, _⟩ => ⟨S_, .f32⟩
  | .hbm, ⟨34, _⟩ => ⟨S4608x6x32x1, .f32⟩
  | .hbm, ⟨35, _⟩ => ⟨S4608x6x32x1, .f32⟩
  | .hbm, ⟨36, _⟩ => ⟨S4608x6x32x64, .f32⟩
  | .hbm, ⟨37, _⟩ => ⟨S4608x6x32x64, .f32⟩
  | .hbm, ⟨38, _⟩ => ⟨S4608x6x32x64, .f32⟩
  | .hbm, ⟨39, _⟩ => ⟨S_, .f32⟩
  | .hbm, ⟨40, _⟩ => ⟨S4608x6x32, .f32⟩
  | .hbm, ⟨41, _⟩ => ⟨S4608x6x32x1, .f32⟩
  | .hbm, ⟨42, _⟩ => ⟨S4608x6x32x1, .f32⟩
  | .hbm, ⟨43, _⟩ => ⟨S_, .f32⟩
  | .hbm, ⟨44, _⟩ => ⟨S4608x6x32x1, .f32⟩
  | .hbm, ⟨45, _⟩ => ⟨S4608x6x32x1, .f32⟩
  | .hbm, ⟨46, _⟩ => ⟨S4608x6x32x64, .f32⟩
  | .hbm, ⟨47, _⟩ => ⟨S4608x6x32x64, .f32⟩
  | .hbm, ⟨48, _⟩ => ⟨S4608x6x32x32, .f32⟩
  | .hbm, ⟨49, _⟩ => ⟨S1x6x1x1, .f32⟩
  | .hbm, ⟨50, _⟩ => ⟨S4608x6x32x32, .f32⟩
  | .hbm, ⟨51, _⟩ => ⟨S4608x6x32x32, .f32⟩
  | .hbm, ⟨52, _⟩ => ⟨S_, .f32⟩
  | .hbm, ⟨53, _⟩ => ⟨S4608x6x32, .f32⟩
  | .hbm, ⟨54, _⟩ => ⟨S_, .f32⟩
  | .hbm, ⟨55, _⟩ => ⟨S4608x6x32, .f32⟩
  | .hbm, ⟨56, _⟩ => ⟨S4608x6x32, .f32⟩
  | .hbm, ⟨57, _⟩ => ⟨S4608x6x32x1, .f32⟩
  | .hbm, ⟨58, _⟩ => ⟨S4608x6x32x32, .f32⟩
  | .hbm, ⟨59, _⟩ => ⟨S4608x6x32x32, .f32⟩
  | .hbm, ⟨60, _⟩ => ⟨S4608x6x32x32, .f32⟩
  | .hbm, ⟨61, _⟩ => ⟨S_, .f32⟩
  | .hbm, ⟨62, _⟩ => ⟨S4608x6x32, .f32⟩
  | .hbm, ⟨63, _⟩ => ⟨S4608x6x32x1, .f32⟩
  | .hbm, ⟨64, _⟩ => ⟨S4608x6x32x32, .f32⟩
  | .hbm, ⟨65, _⟩ => ⟨S4608x6x32x32, .f32⟩
  | .hbm, ⟨66, _⟩ => ⟨S18432x6x8x64, .f32⟩
  | .hbm, ⟨67, _⟩ => ⟨S_, .f32⟩
  | .hbm, ⟨68, _⟩ => ⟨S18432x6x8, .f32⟩
  | .hbm, ⟨69, _⟩ => ⟨S18432x6x8x1, .f32⟩
  | .hbm, ⟨70, _⟩ => ⟨S18432x6x8x1, .f32⟩
  | .hbm, ⟨71, _⟩ => ⟨S_, .f32⟩
  | .hbm, ⟨72, _⟩ => ⟨S18432x6x8x1, .f32⟩
  | .hbm, ⟨73, _⟩ => ⟨S18432x6x8x1, .f32⟩
  | .hbm, ⟨74, _⟩ => ⟨S18432x6x8x64, .f32⟩
  | .hbm, ⟨75, _⟩ => ⟨S18432x6x8x64, .f32⟩
  | .hbm, ⟨76, _⟩ => ⟨S18432x6x8x64, .f32⟩
  | .hbm, ⟨77, _⟩ => ⟨S_, .f32⟩
  | .hbm, ⟨78, _⟩ => ⟨S18432x6x8, .f32⟩
  | .hbm, ⟨79, _⟩ => ⟨S18432x6x8x1, .f32⟩
  | .hbm, ⟨80, _⟩ => ⟨S18432x6x8x1, .f32⟩
  | .hbm, ⟨81, _⟩ => ⟨S_, .f32⟩
  | .hbm, ⟨82, _⟩ => ⟨S18432x6x8x1, .f32⟩
  | .hbm, ⟨83, _⟩ => ⟨S18432x6x8x1, .f32⟩
  | .hbm, ⟨84, _⟩ => ⟨S18432x6x8x64, .f32⟩
  | .hbm, ⟨85, _⟩ => ⟨S18432x6x8x64, .f32⟩
  | .hbm, ⟨86, _⟩ => ⟨S18432x6x8x8, .f32⟩
  | .hbm, ⟨87, _⟩ => ⟨S1x6x1x1, .f32⟩
  | .hbm, ⟨88, _⟩ => ⟨S18432x6x8x8, .f32⟩
  | .hbm, ⟨89, _⟩ => ⟨S18432x6x8x8, .f32⟩
  | .hbm, ⟨90, _⟩ => ⟨S_, .f32⟩
  | .hbm, ⟨91, _⟩ => ⟨S18432x6x8, .f32⟩
  | .hbm, ⟨92, _⟩ => ⟨S_, .f32⟩
  | .hbm, ⟨93, _⟩ => ⟨S18432x6x8, .f32⟩
  | .hbm, ⟨94, _⟩ => ⟨S18432x6x8, .f32⟩
  | .hbm, ⟨95, _⟩ => ⟨S18432x6x8x1, .f32⟩
  | .hbm, ⟨96, _⟩ => ⟨S18432x6x8x8, .f32⟩
  | .hbm, ⟨97, _⟩ => ⟨S18432x6x8x8, .f32⟩
  | .hbm, ⟨98, _⟩ => ⟨S18432x6x8x8, .f32⟩
  | .hbm, ⟨99, _⟩ => ⟨S_, .f32⟩
  | .hbm, ⟨100, _⟩ => ⟨S18432x6x8, .f32⟩
  | .hbm, ⟨101, _⟩ => ⟨S18432x6x8x1, .f32⟩
  | .hbm, ⟨102, _⟩ => ⟨S18432x6x8x8, .f32⟩
  | .hbm, ⟨103, _⟩ => ⟨S18432x6x8x8, .f32⟩
  | .hbm, ⟨104, _⟩ => ⟨S4608x6x32x64, .f32⟩
  | .hbm, ⟨105, _⟩ => ⟨S2x8x24x12x6x4x8x64, .f32⟩
  | .hbm, ⟨106, _⟩ => ⟨S2x24x4x12x8x6x8x64, .f32⟩
  | .hbm, ⟨107, _⟩ => ⟨S18432x6x8x64, .f32⟩
  | .hbm, ⟨108, _⟩ => ⟨S18432x6x8x64, .f32⟩
  | .hbm, ⟨109, _⟩ => ⟨S2x24x4x12x8x6x8x64, .f32⟩
  | .hbm, ⟨110, _⟩ => ⟨S2x6x64x8x24x4x12x8, .f32⟩
  | .hbm, ⟨111, _⟩ => ⟨S2x384x8x96x96, .f32⟩
  | _, _ => ⟨S2x384x8x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_11 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩

abbrev nD : Nat := 1
abbrev τ : Topo := Topo.v7x

variable {F : FTy → Type} [FloatOps F]

class Facts₀ : Prop where
  shapeCasts_S2x384x8x96x96_S2x6x64x8x24x4x12x8 : S2x384x8x96x96.ShapeCasts S2x6x64x8x24x4x12x8
  transposes_S2x6x64x8x24x4x12x8_S2x8x24x12x6x4x8x64_0_3_4_6_1_5_7_2 : S2x6x64x8x24x4x12x8.Transposes [0, 3, 4, 6, 1, 5, 7, 2] S2x8x24x12x6x4x8x64
  shapeCasts_S2x8x24x12x6x4x8x64_S4608x6x32x64 : S2x8x24x12x6x4x8x64.ShapeCasts S4608x6x32x64
  shapeCasts_S2x384x8x96x96_S2x6x64x8x96x96 : S2x384x8x96x96.ShapeCasts S2x6x64x8x96x96
  transposes_S2x6x64x8x96x96_S2x96x96x6x8x64_0_4_5_1_3_2 : S2x6x64x8x96x96.Transposes [0, 4, 5, 1, 3, 2] S2x96x96x6x8x64
  shapeCasts_S2x96x96x6x8x64_S18432x6x8x64 : S2x96x96x6x8x64.ShapeCasts S18432x6x8x64
  bcast_S_S6x1x1 : S_.BroadcastsInDim S6x1x1 (![] : Fin 0 → Fin S6x1x1.rank)
  reducesTo_S4608x6x32x64_S4608x6x32_d3 : S4608x6x32x64.ReducesTo [3] S4608x6x32
  h_S_ : 0 < S_.numel
  bcast_S4608x6x32_S4608x6x32x1_0_1_2 : S4608x6x32.BroadcastsInDim S4608x6x32x1 (![0, 1, 2] : Fin 3 → Fin S4608x6x32x1.rank)
  bcast_S_S4608x6x32x1 : S_.BroadcastsInDim S4608x6x32x1 (![] : Fin 0 → Fin S4608x6x32x1.rank)
  bcast_S4608x6x32x1_S4608x6x32x64_0_1_2_3 : S4608x6x32x1.BroadcastsInDim S4608x6x32x64 (![0, 1, 2, 3] : Fin 4 → Fin S4608x6x32x64.rank)
  bcast_S6x1x1_S1x6x1x1_1_2_3 : S6x1x1.BroadcastsInDim S1x6x1x1 (![1, 2, 3] : Fin 3 → Fin S1x6x1x1.rank)
  bcast_S1x6x1x1_S4608x6x32x32_0_1_2_3 : S1x6x1x1.BroadcastsInDim S4608x6x32x32 (![0, 1, 2, 3] : Fin 4 → Fin S4608x6x32x32.rank)
  reducesTo_S4608x6x32x32_S4608x6x32_d3 : S4608x6x32x32.ReducesTo [3] S4608x6x32
  bcast_S_S4608x6x32 : S_.BroadcastsInDim S4608x6x32 (![] : Fin 0 → Fin S4608x6x32.rank)
  bcast_S4608x6x32x1_S4608x6x32x32_0_1_2_3 : S4608x6x32x1.BroadcastsInDim S4608x6x32x32 (![0, 1, 2, 3] : Fin 4 → Fin S4608x6x32x32.rank)
  reducesTo_S18432x6x8x64_S18432x6x8_d3 : S18432x6x8x64.ReducesTo [3] S18432x6x8
  bcast_S18432x6x8_S18432x6x8x1_0_1_2 : S18432x6x8.BroadcastsInDim S18432x6x8x1 (![0, 1, 2] : Fin 3 → Fin S18432x6x8x1.rank)
  bcast_S_S18432x6x8x1 : S_.BroadcastsInDim S18432x6x8x1 (![] : Fin 0 → Fin S18432x6x8x1.rank)
  bcast_S18432x6x8x1_S18432x6x8x64_0_1_2_3 : S18432x6x8x1.BroadcastsInDim S18432x6x8x64 (![0, 1, 2, 3] : Fin 4 → Fin S18432x6x8x64.rank)
  bcast_S1x6x1x1_S18432x6x8x8_0_1_2_3 : S1x6x1x1.BroadcastsInDim S18432x6x8x8 (![0, 1, 2, 3] : Fin 4 → Fin S18432x6x8x8.rank)
  reducesTo_S18432x6x8x8_S18432x6x8_d3 : S18432x6x8x8.ReducesTo [3] S18432x6x8
  bcast_S_S18432x6x8 : S_.BroadcastsInDim S18432x6x8 (![] : Fin 0 → Fin S18432x6x8.rank)
  bcast_S18432x6x8x1_S18432x6x8x8_0_1_2_3 : S18432x6x8x1.BroadcastsInDim S18432x6x8x8 (![0, 1, 2, 3] : Fin 4 → Fin S18432x6x8x8.rank)
  shapeCasts_S4608x6x32x64_S2x8x24x12x6x4x8x64 : S4608x6x32x64.ShapeCasts S2x8x24x12x6x4x8x64
  transposes_S2x8x24x12x6x4x8x64_S2x24x4x12x8x6x8x64_0_2_5_3_6_4_1_7 : S2x8x24x12x6x4x8x64.Transposes [0, 2, 5, 3, 6, 4, 1, 7] S2x24x4x12x8x6x8x64
  shapeCasts_S2x24x4x12x8x6x8x64_S18432x6x8x64 : S2x24x4x12x8x6x8x64.ShapeCasts S18432x6x8x64
  shapeCasts_S18432x6x8x64_S2x24x4x12x8x6x8x64 : S18432x6x8x64.ShapeCasts S2x24x4x12x8x6x8x64
  transposes_S2x24x4x12x8x6x8x64_S2x6x64x8x24x4x12x8_0_5_7_6_1_2_3_4 : S2x24x4x12x8x6x8x64.Transposes [0, 5, 7, 6, 1, 2, 3, 4] S2x6x64x8x24x4x12x8
  shapeCasts_S2x6x64x8x24x4x12x8_S2x384x8x96x96 : S2x6x64x8x24x4x12x8.ShapeCasts S2x384x8x96x96
  dot_S4608x6x32x64_S4608x6x32x64_S4608x6x32x32_3_3_2_2_01_01_wf : DotDims.WF S4608x6x32x64 S4608x6x32x64 S4608x6x32x32 [3] [3] [2] [2] [0, 1] [0, 1]
  dot_S18432x6x8x64_S18432x6x8x64_S18432x6x8x8_3_3_2_2_01_01_wf : DotDims.WF S18432x6x8x64 S18432x6x8x64 S18432x6x8x8 [3] [3] [2] [2] [0, 1] [0, 1]
  dot_S4608x6x32x32_S4608x6x32x64_S4608x6x32x64_3_2_2_3_01_01_wf : DotDims.WF S4608x6x32x32 S4608x6x32x64 S4608x6x32x64 [3] [2] [2] [3] [0, 1] [0, 1]
  dot_S18432x6x8x8_S18432x6x8x64_S18432x6x8x64_3_2_2_3_01_01_wf : DotDims.WF S18432x6x8x8 S18432x6x8x64 S18432x6x8x64 [3] [2] [2] [3] [0, 1] [0, 1]

variable [Facts₀]

def dot_S4608x6x32x64_S4608x6x32x64_S4608x6x32x32_3_3_2_2_01_01 : DotDims S4608x6x32x64 S4608x6x32x64 S4608x6x32x32 where
  lhsContracting := [3]
  rhsContracting := [3]
  lhsNonContracting := [2]
  rhsNonContracting := [2]
  lhsBatch := [0, 1]
  rhsBatch := [0, 1]
  wf := dot_S4608x6x32x64_S4608x6x32x64_S4608x6x32x32_3_3_2_2_01_01_wf
def dot_S18432x6x8x64_S18432x6x8x64_S18432x6x8x8_3_3_2_2_01_01 : DotDims S18432x6x8x64 S18432x6x8x64 S18432x6x8x8 where
  lhsContracting := [3]
  rhsContracting := [3]
  lhsNonContracting := [2]
  rhsNonContracting := [2]
  lhsBatch := [0, 1]
  rhsBatch := [0, 1]
  wf := dot_S18432x6x8x64_S18432x6x8x64_S18432x6x8x8_3_3_2_2_01_01_wf
def dot_S4608x6x32x32_S4608x6x32x64_S4608x6x32x64_3_2_2_3_01_01 : DotDims S4608x6x32x32 S4608x6x32x64 S4608x6x32x64 where
  lhsContracting := [3]
  rhsContracting := [2]
  lhsNonContracting := [2]
  rhsNonContracting := [3]
  lhsBatch := [0, 1]
  rhsBatch := [0, 1]
  wf := dot_S4608x6x32x32_S4608x6x32x64_S4608x6x32x64_3_2_2_3_01_01_wf
def dot_S18432x6x8x8_S18432x6x8x64_S18432x6x8x64_3_2_2_3_01_01 : DotDims S18432x6x8x8 S18432x6x8x64 S18432x6x8x64 where
  lhsContracting := [3]
  rhsContracting := [2]
  lhsNonContracting := [2]
  rhsNonContracting := [3]
  lhsBatch := [0, 1]
  rhsBatch := [0, 1]
  wf := dot_S18432x6x8x8_S18432x6x8x64_S18432x6x8x64_3_2_2_3_01_01_wf

class Facts : Prop extends Facts₀ where

variable [Facts]
-- ==== Proof.KRun.lean ====
/-
  The run of the whole program with the result read out.

  The program is a chain of host stretches and two kernel regions. The run's last boundary leaves every buffer
  that outlives the regions at the contents the chain of boundaries assigns it; in particular the result buffer
  holds the last boundary's contents for it, and each of the five argument arrays, which no stretch and no region
  writes, still holds what it was launched with. So: the run ends with every buffer at the last boundary's
  contents; read the result and the arguments out of it.
-/
import proofs.«113070_j68642167324784_2_alg».proof.Proof.Gen.KernelIdeal.Frame

set_option maxRecDepth 16384

noncomputable section

namespace Cert.KernelIdeal.KRun

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters every weakly fair execution of the program terminates, nothing faulting,
    and every final state has the result buffer at the last boundary's contents and the five argument arrays as
    launched: the last thread state holds every buffer that outlives the regions at the last boundary's contents,
    read against the final state; the result is read as it stands, each argument through the chain of boundaries
    back to its launch contents. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KRun

end
-- ==== Proof.Attend.lean ====
/-
  Cosine attention over the extended reals, for one group of `L` positions with `C` channels each
  (one window and head of the spatial branch, one pixel and head of the temporal branch).

  Each query and key row is divided by the larger of its Euclidean norm and a fixed floor; the logit of
  positions (i, j) is the dot product of the two scaled rows times the head's scale; a row of logits is turned
  into weights by subtracting its peak, exponentiating and dividing by the row's total; the result at (i, c) is
  the weighted sum over j of the value rows.  Every sum is a finite sum over `Fin`, every maximum a fold of
  `max`, so nothing here depends on an order of evaluation, and nothing needs the entries to be finite.
-/
import Idealize.ShloMosaic.PureOps.Ideal
import Idealize.ShloMosaic.PureOps.Ideal.Laws
import Idealize.ShloMosaic.Lib.ValueIdx

noncomputable section

open scoped BigOperators

namespace Cert.Attend

open Idealize.ShloMosaic Idealize.ShloMosaic.ValueIdx

/-- The floor under a row's norm: the single-precision number nearest 1e-12, by its bits. -/
def floor : EReal := Ideal.ofBits .f32 0x2B8CBCCC#32

/-- The value every row maximum starts from: minus infinity, by its bits. -/
def bottom : EReal := Ideal.ofBits .f32 0xFF800000#32

variable {L C : ℕ}

/-- A row divided by the larger of its norm and the floor, at channel `c`. -/
def unit (x : Fin C → EReal) (c : Fin C) : EReal :=
  Ideal.div (x c) (max (Ideal.sqrt (∑ k : Fin C, x k * x k)) floor)

/-- The scaled cosine of query row `i` and key row `j`. -/
def logit (q k : Fin L → Fin C → EReal) (s : EReal) (i j : Fin L) : EReal :=
  (∑ c : Fin C, unit (q i) c * unit (k j) c) * s

/-- A row's peak: the maximum of its entries and minus infinity (taken once more against minus infinity, as
    both programs do). -/
def peak (a : Fin L → EReal) : EReal :=
  max bottom ((Finset.univ : Finset (Fin L)).fold max bottom a)

/-- The weight position `i` gives position `j`: the exponential of the logit less the row's peak, over the
    row's total of those exponentials. -/
def weight (q k : Fin L → Fin C → EReal) (s : EReal) (i j : Fin L) : EReal :=
  Ideal.div (Ideal.exp (logit q k s i j - peak (logit q k s i)))
    (∑ j' : Fin L, Ideal.exp (logit q k s i j' - peak (logit q k s i)))

/-- The attended value at position `i`, channel `c`. -/
def attend (q k v : Fin L → Fin C → EReal) (s : EReal) (i : Fin L) (c : Fin C) : EReal :=
  ∑ j : Fin L, weight q k s i j * v j c

/-- Attention applied group by group to whole arrays laid out as [group, head, position, channel]: the entry at
    (n, d, i, c) attends within group `n` and head `d`, with that head's scale. -/
def spread (N L : ℕ) (q k v : (⟨4, ![N, 6, L, 64]⟩ : Shape).Idx → EReal) (s : (⟨3, ![6, 1, 1]⟩ : Shape).Idx → EReal) :
    (⟨4, ![N, 6, L, 64]⟩ : Shape).Idx → EReal :=
  fun i => attend (fun a c => q (ix4 (⟨(i 0).val, (i 0).isLt⟩ : Fin N) (⟨(i 1).val, (i 1).isLt⟩ : Fin 6) a c))
    (fun a c => k (ix4 (⟨(i 0).val, (i 0).isLt⟩ : Fin N) (⟨(i 1).val, (i 1).isLt⟩ : Fin 6) a c))
    (fun a c => v (ix4 (⟨(i 0).val, (i 0).isLt⟩ : Fin N) (⟨(i 1).val, (i 1).isLt⟩ : Fin 6) a c))
    (s (ix3 (⟨(i 1).val, (i 1).isLt⟩ : Fin 6) (0 : Fin 1) (0 : Fin 1)))
    (⟨(i 2).val, (i 2).isLt⟩ : Fin L) (⟨(i 3).val, (i 3).isLt⟩ : Fin 64)

/-- At explicit coordinates. -/
theorem spread_ix4 (N L : ℕ) (q k v : (⟨4, ![N, 6, L, 64]⟩ : Shape).Idx → EReal) (s : (⟨3, ![6, 1, 1]⟩ : Shape).Idx → EReal)
    (n : Fin N) (d : Fin 6) (a : Fin L) (c : Fin 64) :
    spread N L q k v s (ix4 n d a c)
      = attend (fun a' c' => q (ix4 n d a' c')) (fun a' c' => k (ix4 n d a' c')) (fun a' c' => v (ix4 n d a' c'))
          (s (ix3 d 0 0)) a c := rfl

end Cert.Attend

end
-- ==== Proof.Blocks.lean ====
/-
  From blocks to whole arrays, for both attention regions of the kernel.

  Region 0 walks its 4608 windows in 128 grid points of 36 windows each; region 1 walks its 18432 pixels in 128
  points of 144.  At point `t` the query, key and value blocks are rows `t·B … t·B + B − 1` of their arrays (B = 36
  or 144), the scale block is the whole [6,1,1] array, and the output block is written back to the same rows of the
  output array.  Attention acts on each (window, head) pair by itself, so what a point writes back is exactly the
  restriction to those rows of attention applied to the whole arrays (`Cert.Attend.spread`); the 128 row ranges
  tile the first axis, so after the region the output array IS that whole-array function of the region's inputs.
  What the body computes on one block is taken as a hypothesis here (`Body0`, `Body1`) and supplied where the
  pieces are put together.
-/
import proofs.«113070_j68642167324784_2_alg».proof.Proof.Gen.KernelIdeal.Frame
import proofs.«113070_j68642167324784_2_alg».proof.Proof.Attend
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 0: 36 windows per point -/

/-- What the body leaves in its output block, entry by entry: attention within the entry's own window and head. -/
def Body0 : Prop :=
  ∀ (x0 x1 x2 : Vec Ideal S36x6x32x64 .f32) (x3 : Vec Ideal S6x1x1 .f32) (b : Fin 36) (d : Fin 6) (a : Fin 32) (c : Fin 64),
    out0_4 (F := Ideal) x0 x1 x2 x3 (ix4 b d a c)
      = Cert.Attend.attend (fun a' c' => x0 (ix4 b d a' c')) (fun a' c' => x1 (ix4 b d a' c'))
          (fun a' c' => x2 (ix4 b d a' c')) (x3 (ix3 d 0 0)) a c

/-- The block index of every window at every point: the point's number on the first axis of the four big windows, zero
    everywhere else. -/
theorem idx0 : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = 0 ∧ win0_3.index t (2 : Fin 3) = 0)
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-- One point, over plain variables: if the three big blocks are rows `T·36 + b` of arrays `Q`, `K`, `W` and the scale
    block is `S`, the body's output at block entry `j` is the whole-array attention at the array entry `i` that `j`
    is written back to. -/
theorem point0 (hB : Body0) (x0 x1 x2 : Vec Ideal S36x6x32x64 .f32) (x3 : Vec Ideal S6x1x1 .f32)
    (Q K W : S4608x6x32x64.Idx → EReal) (S : S6x1x1.Idx → EReal) (T : ℕ) (hT : T < 128)
    (h0 : ∀ (b : Fin 36) (d : Fin 6) (a : Fin 32) (c : Fin 64),
      x0 (ix4 b d a c) = Q (ix4 (⟨T * 36 + b.val, by have := b.isLt; omega⟩ : Fin 4608) d a c))
    (h1 : ∀ (b : Fin 36) (d : Fin 6) (a : Fin 32) (c : Fin 64),
      x1 (ix4 b d a c) = K (ix4 (⟨T * 36 + b.val, by have := b.isLt; omega⟩ : Fin 4608) d a c))
    (h2 : ∀ (b : Fin 36) (d : Fin 6) (a : Fin 32) (c : Fin 64),
      x2 (ix4 b d a c) = W (ix4 (⟨T * 36 + b.val, by have := b.isLt; omega⟩ : Fin 4608) d a c))
    (h3 : ∀ d : Fin 6, x3 (ix3 d 0 0) = S (ix3 d 0 0))
    (j : S36x6x32x64.Idx) (i : S4608x6x32x64.Idx)
    (e0 : (i 0).val = T * 36 + (j 0).val) (e1 : (i 1).val = (j 1).val) (e2 : (i 2).val = (j 2).val)
    (e3 : (i 3).val = (j 3).val) :
    out0_4 (F := Ideal) x0 x1 x2 x3 j = Cert.Attend.spread 4608 32 Q K W S i := by
  obtain ⟨b, d, a, c, rfl⟩ : ∃ (b : Fin 36) (d : Fin 6) (a : Fin 32) (c : Fin 64), j = ix4 b d a c :=
    ⟨j 0, j 1, j 2, j 3, eq_ix4 j⟩
  have hlt : T * 36 + b.val < 4608 := by have := b.isLt; omega
  obtain ⟨n, d', a', c', rfl⟩ : ∃ (n : Fin 4608) (d' : Fin 6) (a' : Fin 32) (c' : Fin 64), i = ix4 n d' a' c' :=
    ⟨i 0, i 1, i 2, i 3, eq_ix4 i⟩
  have hn : n = (⟨T * 36 + b.val, hlt⟩ : Fin 4608) := Fin.ext e0
  have hd : d' = d := Fin.ext e1
  have ha : a' = a := Fin.ext e2
  have hc : c' = c := Fin.ext e3
  subst hn hd ha hc
  rw [hB, Cert.Attend.spread_ix4]
  simp only [h0, h1, h2, h3]

/-- What point `t` writes back is block `t` of attention applied to the region's whole input arrays. -/
theorem flushed0_eq (hB : Body0) (c : Dev nD) (t : Fin cfg0.N) :
    (dat0 V c).flushed 4 t = ((cfg0.win 4).blk t).view.read (Elt Ideal)
      (Cert.Attend.spread 4608 32 (V c main_v2) (V c main_v5) (V c main_v8) (V c main_v17)) := by
  show (cfg0.win 4).cut (grid0.coords t) ((dat0 V c).after 4 t) = _
  rw [after0_4]
  obtain ⟨⟨a0, a1, a2, a3⟩, ⟨b0, b1, b2, b3⟩, ⟨c0, c1, c2, c3⟩, ⟨d0, d1, d2⟩, ⟨e0, e1, e2, e3⟩⟩ := idx0 t
  have ht : t.val < 128 := lt_of_lt_of_eq t.isLt N_0
  funext j
  show out0_4 (iblk0 V c 0 t) (iblk0 V c 1 t) (iblk0 V c 2 t) (iblk0 V c 3 t) j
    = Cert.Attend.spread 4608 32 (V c main_v2) (V c main_v5) (V c main_v8) (V c main_v17) (((cfg0.win 4).blk t).view.emb j)
  refine point0 hB _ _ _ _ _ _ _ _ t.val ht ?_ ?_ ?_ ?_ j _ ?_ ?_ ?_ ?_
  · intro b d a c'
    show V c main_v2 (((cfg0.win 0).blk t).view.emb (ix4 b d a c')) = _
    refine congrArg (V c main_v2) (funext fun ax => Fin.ext ?_)
    match ax with
    | ⟨0, _⟩ => show win0_0.index t (0 : Fin 4) * 36 + 1 * b.val = t.val * 36 + b.val; omega
    | ⟨1, _⟩ => show win0_0.index t (1 : Fin 4) * 6 + 1 * d.val = d.val; omega
    | ⟨2, _⟩ => show win0_0.index t (2 : Fin 4) * 32 + 1 * a.val = a.val; omega
    | ⟨3, _⟩ => show win0_0.index t (3 : Fin 4) * 64 + 1 * c'.val = c'.val; omega
  · intro b d a c'
    show V c main_v5 (((cfg0.win 1).blk t).view.emb (ix4 b d a c')) = _
    refine congrArg (V c main_v5) (funext fun ax => Fin.ext ?_)
    match ax with
    | ⟨0, _⟩ => show win0_1.index t (0 : Fin 4) * 36 + 1 * b.val = t.val * 36 + b.val; omega
    | ⟨1, _⟩ => show win0_1.index t (1 : Fin 4) * 6 + 1 * d.val = d.val; omega
    | ⟨2, _⟩ => show win0_1.index t (2 : Fin 4) * 32 + 1 * a.val = a.val; omega
    | ⟨3, _⟩ => show win0_1.index t (3 : Fin 4) * 64 + 1 * c'.val = c'.val; omega
  · intro b d a c'
    show V c main_v8 (((cfg0.win 2).blk t).view.emb (ix4 b d a c')) = _
    refine congrArg (V c main_v8) (funext fun ax => Fin.ext ?_)
    match ax with
    | ⟨0, _⟩ => show win0_2.index t (0 : Fin 4) * 36 + 1 * b.val = t.val * 36 + b.val; omega
    | ⟨1, _⟩ => show win0_2.index t (1 : Fin 4) * 6 + 1 * d.val = d.val; omega
    | ⟨2, _⟩ => show win0_2.index t (2 : Fin 4) * 32 + 1 * a.val = a.val; omega
    | ⟨3, _⟩ => show win0_2.index t (3 : Fin 4) * 64 + 1 * c'.val = c'.val; omega
  · intro d
    show V c main_v17 (((cfg0.win 3).blk t).view.emb (ix3 d 0 0)) = _
    refine congrArg (V c main_v17) (funext fun ax => Fin.ext ?_)
    match ax with
    | ⟨0, _⟩ => show win0_3.index t (0 : Fin 3) * 6 + 1 * d.val = d.val; omega
    | ⟨1, _⟩ => show win0_3.index t (1 : Fin 3) * 1 + 1 * 0 = 0; omega
    | ⟨2, _⟩ => show win0_3.index t (2 : Fin 3) * 1 + 1 * 0 = 0; omega
  · show win0_4.index t (0 : Fin 4) * 36 + 1 * (j 0).val = t.val * 36 + (j 0).val; omega
  · show win0_4.index t (1 : Fin 4) * 6 + 1 * (j 1).val = (j 1).val; omega
  · show win0_4.index t (2 : Fin 4) * 32 + 1 * (j 2).val = (j 2).val; omega
  · show win0_4.index t (3 : Fin 4) * 64 + 1 * (j 3).val = (j 3).val; omega

/-- An array entry lies in point `t`'s output block iff each coordinate lies in the block's range on its axis. -/
theorem mem_blk0 (t : Fin cfg0.N) (i : S4608x6x32x64.Idx) :
    i ∈ ((cfg0.win 4).blk t).view.set ↔ ∀ a : Fin 4, win0_4.index t a * S36x6x32x64.size a ≤ (i a).val
      ∧ (i a).val < win0_4.index t a * S36x6x32x64.size a + S36x6x32x64.size a := by
  show i ∈ ((View.whole main_v21).slice (win0_4.rect t)).set ↔ _
  rw [View.set_slice_whole, Rect.mem_set_unit]
  exact Iff.rfl

/-- Every entry of the output array is in the block of the point numbered by its window divided by 36. -/
theorem cover0 (i : S4608x6x32x64.Idx) :
    ∃ t : Fin cfg0.N, (cfg0.win 4).flush t = true ∧ i ∈ ((cfg0.win 4).blk t).view.set := by
  have hi0 : (i 0).val < 4608 := (i 0).isLt
  have hi1 : (i 1).val < 6 := (i 1).isLt
  have hi2 : (i 2).val < 32 := (i 2).isLt
  have hi3 : (i 3).val < 64 := (i 3).isLt
  have hN : (i 0).val / 36 < cfg0.N := lt_of_lt_of_eq (by omega : (i 0).val / 36 < 128) N_0.symm
  obtain ⟨-, -, -, -, ⟨e0, e1, e2, e3⟩⟩ := idx0 ⟨(i 0).val / 36, hN⟩
  have e0' : win0_4.index ⟨(i 0).val / 36, hN⟩ (0 : Fin 4) = (i 0).val / 36 := e0
  refine ⟨⟨(i 0).val / 36, hN⟩, flush0_4 _, ?_⟩
  rw [mem_blk0]
  intro a
  match a with
  | ⟨0, _⟩ =>
    show win0_4.index ⟨(i 0).val / 36, hN⟩ (0 : Fin 4) * 36 ≤ (i 0).val
      ∧ (i 0).val < win0_4.index ⟨(i 0).val / 36, hN⟩ (0 : Fin 4) * 36 + 36
    omega
  | ⟨1, _⟩ =>
    show win0_4.index ⟨(i 0).val / 36, hN⟩ (1 : Fin 4) * 6 ≤ (i 1).val
      ∧ (i 1).val < win0_4.index ⟨(i 0).val / 36, hN⟩ (1 : Fin 4) * 6 + 6
    omega
  | ⟨2, _⟩ =>
    show win0_4.index ⟨(i 0).val / 36, hN⟩ (2 : Fin 4) * 32 ≤ (i 2).val
      ∧ (i 2).val < win0_4.index ⟨(i 0).val / 36, hN⟩ (2 : Fin 4) * 32 + 32
    omega
  | ⟨3, _⟩ =>
    show win0_4.index ⟨(i 0).val / 36, hN⟩ (3 : Fin 4) * 64 ≤ (i 3).val
      ∧ (i 3).val < win0_4.index ⟨(i 0).val / 36, hN⟩ (3 : Fin 4) * 64 + 64
    omega

/-- After region 0 its output array is attention applied to the whole arrays the region was entered with. -/
theorem final0 (hB : Body0) (c : Dev nD) :
    (dat0 V c).arrAt 4 cfg0.N
      = Cert.Attend.spread 4608 32 (V c main_v2) (V c main_v5) (V c main_v8) (V c main_v17) :=
  (dat0 V c).arrAt_eq_of_cover 4 _ (fun t _ => flushed0_eq V hB c t) cover0

/-! ## Region 1: 144 pixels per point -/

/-- What the body leaves in its output block, entry by entry: attention within the entry's own pixel and head. -/
def Body1 : Prop :=
  ∀ (x0 x1 x2 : Vec Ideal S144x6x8x64 .f32) (x3 : Vec Ideal S6x1x1 .f32) (b : Fin 144) (d : Fin 6) (a : Fin 8) (c : Fin 64),
    out1_4 (F := Ideal) x0 x1 x2 x3 (ix4 b d a c)
      = Cert.Attend.attend (fun a' c' => x0 (ix4 b d a' c')) (fun a' c' => x1 (ix4 b d a' c'))
          (fun a' c' => x2 (ix4 b d a' c')) (x3 (ix3 d 0 0)) a c

/-- The block index of every window at every point: the point's number on the first axis of the four big windows, zero
    everywhere else. -/
theorem idx1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 3) = 0 ∧ win1_3.index t (1 : Fin 3) = 0 ∧ win1_3.index t (2 : Fin 3) = 0)
    ∧ (win1_4.index t (0 : Fin 4) = t.val ∧ win1_4.index t (1 : Fin 4) = 0 ∧ win1_4.index t (2 : Fin 4) = 0 ∧ win1_4.index t (3 : Fin 4) = 0) :=
  (by decide +kernel : ∀ t : Fin grid1.N, _)

/-- One point, over plain variables: if the three big blocks are rows `T·144 + b` of arrays `Q`, `K`, `W` and the scale
    block is `S`, the body's output at block entry `j` is the whole-array attention at the array entry `i` that `j`
    is written back to. -/
theorem point1 (hB : Body1) (x0 x1 x2 : Vec Ideal S144x6x8x64 .f32) (x3 : Vec Ideal S6x1x1 .f32)
    (Q K W : S18432x6x8x64.Idx → EReal) (S : S6x1x1.Idx → EReal) (T : ℕ) (hT : T < 128)
    (h0 : ∀ (b : Fin 144) (d : Fin 6) (a : Fin 8) (c : Fin 64),
      x0 (ix4 b d a c) = Q (ix4 (⟨T * 144 + b.val, by have := b.isLt; omega⟩ : Fin 18432) d a c))
    (h1 : ∀ (b : Fin 144) (d : Fin 6) (a : Fin 8) (c : Fin 64),
      x1 (ix4 b d a c) = K (ix4 (⟨T * 144 + b.val, by have := b.isLt; omega⟩ : Fin 18432) d a c))
    (h2 : ∀ (b : Fin 144) (d : Fin 6) (a : Fin 8) (c : Fin 64),
      x2 (ix4 b d a c) = W (ix4 (⟨T * 144 + b.val, by have := b.isLt; omega⟩ : Fin 18432) d a c))
    (h3 : ∀ d : Fin 6, x3 (ix3 d 0 0) = S (ix3 d 0 0))
    (j : S144x6x8x64.Idx) (i : S18432x6x8x64.Idx)
    (e0 : (i 0).val = T * 144 + (j 0).val) (e1 : (i 1).val = (j 1).val) (e2 : (i 2).val = (j 2).val)
    (e3 : (i 3).val = (j 3).val) :
    out1_4 (F := Ideal) x0 x1 x2 x3 j = Cert.Attend.spread 18432 8 Q K W S i := by
  obtain ⟨b, d, a, c, rfl⟩ : ∃ (b : Fin 144) (d : Fin 6) (a : Fin 8) (c : Fin 64), j = ix4 b d a c :=
    ⟨j 0, j 1, j 2, j 3, eq_ix4 j⟩
  have hlt : T * 144 + b.val < 18432 := by have := b.isLt; omega
  obtain ⟨n, d', a', c', rfl⟩ : ∃ (n : Fin 18432) (d' : Fin 6) (a' : Fin 8) (c' : Fin 64), i = ix4 n d' a' c' :=
    ⟨i 0, i 1, i 2, i 3, eq_ix4 i⟩
  have hn : n = (⟨T * 144 + b.val, hlt⟩ : Fin 18432) := Fin.ext e0
  have hd : d' = d := Fin.ext e1
  have ha : a' = a := Fin.ext e2
  have hc : c' = c := Fin.ext e3
  subst hn hd ha hc
  rw [hB, Cert.Attend.spread_ix4]
  simp only [h0, h1, h2, h3]

/-- What point `t` writes back is block `t` of attention applied to the region's whole input arrays. -/
theorem flushed1_eq (hB : Body1) (c : Dev nD) (t : Fin cfg1.N) :
    (dat1 V c).flushed 4 t = ((cfg1.win 4).blk t).view.read (Elt Ideal)
      (Cert.Attend.spread 18432 8 (V c main_v11) (V c main_v14) (V c main_v24) (V c main_v20)) := by
  show (cfg1.win 4).cut (grid1.coords t) ((dat1 V c).after 4 t) = _
  rw [after1_4]
  obtain ⟨⟨a0, a1, a2, a3⟩, ⟨b0, b1, b2, b3⟩, ⟨c0, c1, c2, c3⟩, ⟨d0, d1, d2⟩, ⟨e0, e1, e2, e3⟩⟩ := idx1 t
  have ht : t.val < 128 := lt_of_lt_of_eq t.isLt N_1
  funext j
  show out1_4 (iblk1 V c 0 t) (iblk1 V c 1 t) (iblk1 V c 2 t) (iblk1 V c 3 t) j
    = Cert.Attend.spread 18432 8 (V c main_v11) (V c main_v14) (V c main_v24) (V c main_v20) (((cfg1.win 4).blk t).view.emb j)
  refine point1 hB _ _ _ _ _ _ _ _ t.val ht ?_ ?_ ?_ ?_ j _ ?_ ?_ ?_ ?_
  · intro b d a c'
    show V c main_v11 (((cfg1.win 0).blk t).view.emb (ix4 b d a c')) = _
    refine congrArg (V c main_v11) (funext fun ax => Fin.ext ?_)
    match ax with
    | ⟨0, _⟩ => show win1_0.index t (0 : Fin 4) * 144 + 1 * b.val = t.val * 144 + b.val; omega
    | ⟨1, _⟩ => show win1_0.index t (1 : Fin 4) * 6 + 1 * d.val = d.val; omega
    | ⟨2, _⟩ => show win1_0.index t (2 : Fin 4) * 8 + 1 * a.val = a.val; omega
    | ⟨3, _⟩ => show win1_0.index t (3 : Fin 4) * 64 + 1 * c'.val = c'.val; omega
  · intro b d a c'
    show V c main_v14 (((cfg1.win 1).blk t).view.emb (ix4 b d a c')) = _
    refine congrArg (V c main_v14) (funext fun ax => Fin.ext ?_)
    match ax with
    | ⟨0, _⟩ => show win1_1.index t (0 : Fin 4) * 144 + 1 * b.val = t.val * 144 + b.val; omega
    | ⟨1, _⟩ => show win1_1.index t (1 : Fin 4) * 6 + 1 * d.val = d.val; omega
    | ⟨2, _⟩ => show win1_1.index t (2 : Fin 4) * 8 + 1 * a.val = a.val; omega
    | ⟨3, _⟩ => show win1_1.index t (3 : Fin 4) * 64 + 1 * c'.val = c'.val; omega
  · intro b d a c'
    show V c main_v24 (((cfg1.win 2).blk t).view.emb (ix4 b d a c')) = _
    refine congrArg (V c main_v24) (funext fun ax => Fin.ext ?_)
    match ax with
    | ⟨0, _⟩ => show win1_2.index t (0 : Fin 4) * 144 + 1 * b.val = t.val * 144 + b.val; omega
    | ⟨1, _⟩ => show win1_2.index t (1 : Fin 4) * 6 + 1 * d.val = d.val; omega
    | ⟨2, _⟩ => show win1_2.index t (2 : Fin 4) * 8 + 1 * a.val = a.val; omega
    | ⟨3, _⟩ => show win1_2.index t (3 : Fin 4) * 64 + 1 * c'.val = c'.val; omega
  · intro d
    show V c main_v20 (((cfg1.win 3).blk t).view.emb (ix3 d 0 0)) = _
    refine congrArg (V c main_v20) (funext fun ax => Fin.ext ?_)
    match ax with
    | ⟨0, _⟩ => show win1_3.index t (0 : Fin 3) * 6 + 1 * d.val = d.val; omega
    | ⟨1, _⟩ => show win1_3.index t (1 : Fin 3) * 1 + 1 * 0 = 0; omega
    | ⟨2, _⟩ => show win1_3.index t (2 : Fin 3) * 1 + 1 * 0 = 0; omega
  · show win1_4.index t (0 : Fin 4) * 144 + 1 * (j 0).val = t.val * 144 + (j 0).val; omega
  · show win1_4.index t (1 : Fin 4) * 6 + 1 * (j 1).val = (j 1).val; omega
  · show win1_4.index t (2 : Fin 4) * 8 + 1 * (j 2).val = (j 2).val; omega
  · show win1_4.index t (3 : Fin 4) * 64 + 1 * (j 3).val = (j 3).val; omega

/-- An array entry lies in point `t`'s output block iff each coordinate lies in the block's range on its axis. -/
theorem mem_blk1 (t : Fin cfg1.N) (i : S18432x6x8x64.Idx) :
    i ∈ ((cfg1.win 4).blk t).view.set ↔ ∀ a : Fin 4, win1_4.index t a * S144x6x8x64.size a ≤ (i a).val
      ∧ (i a).val < win1_4.index t a * S144x6x8x64.size a + S144x6x8x64.size a := by
  show i ∈ ((View.whole main_v25).slice (win1_4.rect t)).set ↔ _
  rw [View.set_slice_whole, Rect.mem_set_unit]
  exact Iff.rfl

/-- Every entry of the output array is in the block of the point numbered by its window divided by 144. -/
theorem cover1 (i : S18432x6x8x64.Idx) :
    ∃ t : Fin cfg1.N, (cfg1.win 4).flush t = true ∧ i ∈ ((cfg1.win 4).blk t).view.set := by
  have hi0 : (i 0).val < 18432 := (i 0).isLt
  have hi1 : (i 1).val < 6 := (i 1).isLt
  have hi2 : (i 2).val < 8 := (i 2).isLt
  have hi3 : (i 3).val < 64 := (i 3).isLt
  have hN : (i 0).val / 144 < cfg1.N := lt_of_lt_of_eq (by omega : (i 0).val / 144 < 128) N_1.symm
  obtain ⟨-, -, -, -, ⟨e0, e1, e2, e3⟩⟩ := idx1 ⟨(i 0).val / 144, hN⟩
  have e0' : win1_4.index ⟨(i 0).val / 144, hN⟩ (0 : Fin 4) = (i 0).val / 144 := e0
  refine ⟨⟨(i 0).val / 144, hN⟩, flush1_4 _, ?_⟩
  rw [mem_blk1]
  intro a
  match a with
  | ⟨0, _⟩ =>
    show win1_4.index ⟨(i 0).val / 144, hN⟩ (0 : Fin 4) * 144 ≤ (i 0).val
      ∧ (i 0).val < win1_4.index ⟨(i 0).val / 144, hN⟩ (0 : Fin 4) * 144 + 144
    omega
  | ⟨1, _⟩ =>
    show win1_4.index ⟨(i 0).val / 144, hN⟩ (1 : Fin 4) * 6 ≤ (i 1).val
      ∧ (i 1).val < win1_4.index ⟨(i 0).val / 144, hN⟩ (1 : Fin 4) * 6 + 6
    omega
  | ⟨2, _⟩ =>
    show win1_4.index ⟨(i 0).val / 144, hN⟩ (2 : Fin 4) * 8 ≤ (i 2).val
      ∧ (i 2).val < win1_4.index ⟨(i 0).val / 144, hN⟩ (2 : Fin 4) * 8 + 8
    omega
  | ⟨3, _⟩ =>
    show win1_4.index ⟨(i 0).val / 144, hN⟩ (3 : Fin 4) * 64 ≤ (i 3).val
      ∧ (i 3).val < win1_4.index ⟨(i 0).val / 144, hN⟩ (3 : Fin 4) * 64 + 64
    omega

/-- After region 1 its output array is attention applied to the whole arrays the region was entered with. -/
theorem final1 (hB : Body1) (c : Dev nD) :
    (dat1 V c).arrAt 4 cfg1.N
      = Cert.Attend.spread 18432 8 (V c main_v11) (V c main_v14) (V c main_v24) (V c main_v20) :=
  (dat1 V c).arrAt_eq_of_cover 4 _ (fun t _ => flushed1_eq V hB c t) cover1

end Cert.KernelIdeal.Blocks

end
-- ==== Proof.KerRead.lean ====
/-
  The kernel body's result read at one index, for both branches.

  Each branch's body takes three blocks q, k, v of shape [B, 6, L, 64] (B groups, 6 heads, L positions, 64
  channels) and one scale per head. It divides every row of q and of k by the larger of the row's Euclidean norm
  and a fixed floor; multiplies the two scaled blocks row against row within each (group, head) pair — a batched
  product over the merged axis of B·6 pairs, the pair (b, d) at merged coordinate 6·b + d — and scales by the
  head's scale; takes each row's peak (its maximum from minus infinity, once more against minus infinity);
  exponentiates the logits less the peak and divides by the row's total; and multiplies those weights with v,
  again batched over the merged axis. Read at (b, d, a, c) this is the attended value of group b, head d at
  position a, channel c, as `Cert.Attend.attend` writes it: every operation is read through at the index, the
  sums over the last axis are finite sums over its coordinates, the two merged-axis casts are read by their
  row-major positions, and each batched product is the sum over its one contracted coordinate.
-/
import proofs.«113070_j68642167324784_2_alg».proof.Proof.Gen.KernelIdeal.Frame
import proofs.«113070_j68642167324784_2_alg».proof.Proof.Attend
import Idealize.ShloMosaic.Lib.ValueIdx
import Idealize.ShloMosaic.Lib.Pipeline.Value
import Idealize.ShloMosaic.PureOps.Ideal.Laws

noncomputable section

open scoped BigOperators

namespace Cert.KerRead

open Idealize.ShloMosaic Idealize.ShloMosaic.ValueIdx Cert.KernelIdeal Cert.KernelIdeal.Gen

/-- The all-zero offsets of a whole-block access, rank 4 and rank 3. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The first region: 36 groups of 32 positions -/

theorem out0_eq (x0 x1 x2 : Vec Ideal S36x6x32x64 .f32) (x3 : Vec Ideal S6x1x1 .f32) :
    out0_4 (F := Ideal) x0 x1 x2 x3 = k0_pay1 (k0_pay2 x2) (k0_pay3 x0 x1 x3) (k0_pay4 x0 x1 x3) := by
  unfold out0_4
  rw [View.canon_unit_zero hz4]
  simp only [View.ld_unit_zero (S := S36x6x32x64) hz4, View.ld_unit_zero (S := S6x1x1) hz3]

/-- The index over (b, d, a) with channel k inserted on the last axis. -/
theorem lift0_c (b : Fin 36) (d : Fin 6) (a : Fin 32) (k : Fin 64) :
    reduces_S36x6x32x64_S36x6x32.lift (ix3 b d a) k = ix4 b d a k := by
  funext e; apply Fin.ext
  match e with
  | ⟨0, _⟩ => rfl
  | ⟨1, _⟩ => rfl
  | ⟨2, _⟩ => rfl
  | ⟨3, _⟩ => rfl

/-- A block with every row divided by the larger of its norm and the floor. -/
def nrm0 (x : FVec Ideal S36x6x32x64 .f32) : FVec Ideal S36x6x32x64 .f32 :=
  divf x (broadcastTo S36x6x32x64 (maximumf (sqrt (shapeCast S36x6x32x1 (multiReduction .add [3] S36x6x32 (mulf x x) 0x00000000#32 reduces_S36x6x32x64_S36x6x32 (.inl rfl) rfl) shapeCasts_S36x6x32_S36x6x32x1)) (broadcast S36x6x32x1 (Scalar.ofBits .f32 0x2B8CBCCC#32))) broadcasts_S36x6x32x1_S36x6x32x64)

theorem nrm0_apply (x : FVec Ideal S36x6x32x64 .f32) (b : Fin 36) (d : Fin 6) (a : Fin 32) (c : Fin 64) :
    nrm0 x (ix4 b d a c) = Cert.Attend.unit (fun c' => x (ix4 b d a c')) c := by
  unfold nrm0 Cert.Attend.unit
  rw [divf_apply]
  rw [broadcastTo_apply _ broadcasts_S36x6x32x1_S36x6x32x64 (ix4 b d a c) (ix4 b d a 0) (fun e => by
    match e with
    | ⟨0, _⟩ => rfl
    | ⟨1, _⟩ => rfl
    | ⟨2, _⟩ => rfl
    | ⟨3, _⟩ => rfl)]
  rw [maximumf_apply]
  show Ideal.div _ (max (Ideal.sqrt (shapeCast S36x6x32x1 _ _ _)) _) = _
  rw [shapeCast_apply _ shapeCasts_S36x6x32_S36x6x32x1 (ix4 b d a 0) (ix3 b d a) (by
    rw [Shape.rowMajor_val_three, Shape.rowMajor_val_four]
    show (b.val * 6 + d.val) * 32 + a.val = ((b.val * 6 + d.val) * 32 + a.val) * 1 + 0
    omega)]
  have h := Ideal.multiReduction_add_single (mulf x x) 0x00000000#32 reduces_S36x6x32x64_S36x6x32 (.inl rfl) rfl (ix3 b d a)
  rw [h]
  show Ideal.div (x (ix4 b d a c)) (max (Ideal.sqrt (∑ k : Fin 64, mulf x x (reduces_S36x6x32x64_S36x6x32.lift (ix3 b d a) k))) Cert.Attend.floor) = Ideal.div (x (ix4 b d a c)) (max (Ideal.sqrt (∑ k : Fin 64, x (ix4 b d a k) * x (ix4 b d a k))) Cert.Attend.floor)
  simp only [lift0_c, mulf_apply]

theorem dA0_l0 (i : S216x32x32.Idx) (q : dot_S216x32x64_S216x32x64_S216x32x32_2_2_1_1_0_0.contr.Idx) : (dot_S216x32x64_S216x32x64_S216x32x32_2_2_1_1_0_0.lhsIdx i q 0).val = (i 0).val := by
  unfold DotDims.lhsIdx
  rw [dif_pos (show (0 : Fin S216x32x64.rank) ∈ dot_S216x32x64_S216x32x64_S216x32x32_2_2_1_1_0_0.lhsBatch by decide)]
  rfl
theorem dA0_l1 (i : S216x32x32.Idx) (q : dot_S216x32x64_S216x32x64_S216x32x32_2_2_1_1_0_0.contr.Idx) : (dot_S216x32x64_S216x32x64_S216x32x32_2_2_1_1_0_0.lhsIdx i q 1).val = (i 1).val := by
  unfold DotDims.lhsIdx
  rw [dif_neg (show ¬(1 : Fin S216x32x64.rank) ∈ dot_S216x32x64_S216x32x64_S216x32x32_2_2_1_1_0_0.lhsBatch by decide), dif_pos (show (1 : Fin S216x32x64.rank) ∈ dot_S216x32x64_S216x32x64_S216x32x32_2_2_1_1_0_0.lhsNonContracting by decide)]
  rfl
theorem dA0_l2 (i : S216x32x32.Idx) (q : dot_S216x32x64_S216x32x64_S216x32x32_2_2_1_1_0_0.contr.Idx) : (dot_S216x32x64_S216x32x64_S216x32x32_2_2_1_1_0_0.lhsIdx i q 2).val = (q ⟨0, by decide⟩).val :=
  dot_S216x32x64_S216x32x64_S216x32x32_2_2_1_1_0_0.lhsIdx_val_of_single rfl i q
theorem dA0_r0 (i : S216x32x32.Idx) (q : dot_S216x32x64_S216x32x64_S216x32x32_2_2_1_1_0_0.contr.Idx) : (dot_S216x32x64_S216x32x64_S216x32x32_2_2_1_1_0_0.rhsIdx i q 0).val = (i 0).val := by
  unfold DotDims.rhsIdx
  rw [dif_pos (show (0 : Fin S216x32x64.rank) ∈ dot_S216x32x64_S216x32x64_S216x32x32_2_2_1_1_0_0.rhsBatch by decide)]
  rfl
theorem dA0_r1 (i : S216x32x32.Idx) (q : dot_S216x32x64_S216x32x64_S216x32x32_2_2_1_1_0_0.contr.Idx) : (dot_S216x32x64_S216x32x64_S216x32x32_2_2_1_1_0_0.rhsIdx i q 1).val = (i 2).val := by
  unfold DotDims.rhsIdx
  rw [dif_neg (show ¬(1 : Fin S216x32x64.rank) ∈ dot_S216x32x64_S216x32x64_S216x32x32_2_2_1_1_0_0.rhsBatch by decide), dif_pos (show (1 : Fin S216x32x64.rank) ∈ dot_S216x32x64_S216x32x64_S216x32x32_2_2_1_1_0_0.rhsNonContracting by decide)]
  rfl
theorem dA0_r2 (i : S216x32x32.Idx) (q : dot_S216x32x64_S216x32x64_S216x32x32_2_2_1_1_0_0.contr.Idx) : (dot_S216x32x64_S216x32x64_S216x32x32_2_2_1_1_0_0.rhsIdx i q 2).val = (q ⟨0, by decide⟩).val :=
  dot_S216x32x64_S216x32x64_S216x32x32_2_2_1_1_0_0.rhsIdx_val_of_single rfl i q

/-- The first batched product at (n, i, j): the sum over channels of the two operands' rows i and j of batch n. -/
theorem mmA0_apply (l r : FVec Ideal S216x32x64 .bf16) (n : Fin 216) (i j : Fin 32) :
    matmul dot_S216x32x64_S216x32x64_S216x32x32_2_2_1_1_0_0 none l r (constant S216x32x32 .f32 0x00000000#32) (ix3 n i j)
      = ∑ c : Fin 64, l (ix3 n i c) * r (ix3 n j c) := by
  simp only [matmul]
  rw [Ideal.matmul_constant_zero_apply, ← Equiv.sum_comp (contrEquiv1 dot_S216x32x64_S216x32x64_S216x32x32_2_2_1_1_0_0 64 rfl rfl).symm]
  refine Finset.sum_congr rfl fun k _ => ?_
  have hk := contrEquiv1_symm_val dot_S216x32x64_S216x32x64_S216x32x32_2_2_1_1_0_0 64 rfl rfl k
  have el : dot_S216x32x64_S216x32x64_S216x32x32_2_2_1_1_0_0.lhsIdx (ix3 n i j) ((contrEquiv1 dot_S216x32x64_S216x32x64_S216x32x32_2_2_1_1_0_0 64 rfl rfl).symm k) = ix3 n i k := funext fun a => Fin.ext (by
    match a with
    | ⟨0, _⟩ => exact dA0_l0 _ _
    | ⟨1, _⟩ => exact dA0_l1 _ _
    | ⟨2, _⟩ => exact (dA0_l2 _ _).trans hk)
  have er : dot_S216x32x64_S216x32x64_S216x32x32_2_2_1_1_0_0.rhsIdx (ix3 n i j) ((contrEquiv1 dot_S216x32x64_S216x32x64_S216x32x32_2_2_1_1_0_0 64 rfl rfl).symm k) = ix3 n j k := funext fun a => Fin.ext (by
    match a with
    | ⟨0, _⟩ => exact dA0_r0 _ _
    | ⟨1, _⟩ => exact dA0_r1 _ _
    | ⟨2, _⟩ => exact (dA0_r2 _ _).trans hk)
  rw [el, er]

/-- The merged batch coordinate of group b and head d. -/
def mrg0 (b : Fin 36) (d : Fin 6) : Fin 216 := ⟨6 * b.val + d.val, by have := b.isLt; have := d.isLt; omega⟩

/-- A [36,6,32,64] block viewed with its two batch axes merged, read at the merged coordinate. -/
theorem cast0_c (x : FVec Ideal S36x6x32x64 .f32) (b : Fin 36) (d : Fin 6) (i : Fin 32) (c : Fin 64) :
    shapeCast S216x32x64 x shapeCasts_S36x6x32x64_S216x32x64 (ix3 (mrg0 b d) i c) = x (ix4 b d i c) :=
  shapeCast_apply x shapeCasts_S36x6x32x64_S216x32x64 (ix3 (mrg0 b d) i c) (ix4 b d i c) (by
    rw [Shape.rowMajor_val_three, Shape.rowMajor_val_four]
    show ((b.val * 6 + d.val) * 32 + i.val) * 64 + c.val = ((6 * b.val + d.val) * 32 + i.val) * 64 + c.val
    omega)

/-- The same for a [36,6,32,32] block. -/
theorem cast0_j (x : FVec Ideal S36x6x32x32 .f32) (b : Fin 36) (d : Fin 6) (i : Fin 32) (j : Fin 32) :
    shapeCast S216x32x32 x shapeCasts_S36x6x32x32_S216x32x32 (ix3 (mrg0 b d) i j) = x (ix4 b d i j) :=
  shapeCast_apply x shapeCasts_S36x6x32x32_S216x32x32 (ix3 (mrg0 b d) i j) (ix4 b d i j) (by
    rw [Shape.rowMajor_val_three, Shape.rowMajor_val_four]
    show ((b.val * 6 + d.val) * 32 + i.val) * 32 + j.val = ((6 * b.val + d.val) * 32 + i.val) * 32 + j.val
    omega)

/-- The scaled products of two blocks' rows: a batched product over the merged batch axis, times the head's scale. -/
def lg0 (n0 n1 : FVec Ideal S36x6x32x64 .f32) (v6 : Vec Ideal S6x1x1 .f32) : FVec Ideal S36x6x32x32 .f32 :=
  mulf (shapeCast S36x6x32x32 (matmul dot_S216x32x64_S216x32x64_S216x32x32_2_2_1_1_0_0 none (truncf .bf16 (shapeCast S216x32x64 n0 shapeCasts_S36x6x32x64_S216x32x64) bitsLt_bf16_f32) (truncf .bf16 (shapeCast S216x32x64 n1 shapeCasts_S36x6x32x64_S216x32x64) bitsLt_bf16_f32) (constant S216x32x32 .f32 0x00000000#32)) shapeCasts_S216x32x32_S36x6x32x32) (broadcastTo S36x6x32x32 (shapeCast S1x6x1x1 (shapeCast S6x1x1 v6 shapeCasts_S6x1x1_S6x1x1) shapeCasts_S6x1x1_S1x6x1x1) broadcasts_S1x6x1x1_S36x6x32x32)

theorem lg0_apply (n0 n1 : FVec Ideal S36x6x32x64 .f32) (v6 : Vec Ideal S6x1x1 .f32) (b : Fin 36) (d : Fin 6) (i j : Fin 32) :
    lg0 n0 n1 v6 (ix4 b d i j) = (∑ c : Fin 64, n0 (ix4 b d i c) * n1 (ix4 b d j c)) * v6 (ix3 d 0 0) := by
  unfold lg0
  rw [mulf_apply]
  rw [shapeCast_apply _ shapeCasts_S216x32x32_S36x6x32x32 (ix4 b d i j) (ix3 (mrg0 b d) i j) (by
    rw [Shape.rowMajor_val_three, Shape.rowMajor_val_four]
    show ((6 * b.val + d.val) * 32 + i.val) * 32 + j.val = ((b.val * 6 + d.val) * 32 + i.val) * 32 + j.val
    omega)]
  rw [mmA0_apply]
  rw [broadcastTo_apply _ broadcasts_S1x6x1x1_S36x6x32x32 (ix4 b d i j) (ix4 0 d 0 0) (fun e => by
    match e with
    | ⟨0, _⟩ => rfl
    | ⟨1, _⟩ => rfl
    | ⟨2, _⟩ => rfl
    | ⟨3, _⟩ => rfl)]
  rw [shapeCast_apply _ shapeCasts_S6x1x1_S1x6x1x1 (ix4 0 d 0 0) (ix3 d 0 0) (by
    rw [Shape.rowMajor_val_three, Shape.rowMajor_val_four]
    show (d.val * 1 + 0) * 1 + 0 = ((0 * 6 + d.val) * 1 + 0) * 1 + 0
    omega)]
  rw [shapeCast_self]
  refine congrArg (· * v6 (ix3 d 0 0)) (Finset.sum_congr rfl fun c _ => ?_)
  rw [truncf_apply, truncf_apply, cast0_c, cast0_c]

theorem pay3_eq0 (v0 v2 : Vec Ideal S36x6x32x64 .f32) (v6 : Vec Ideal S6x1x1 .f32) :
    k0_pay3 v0 v2 v6 = lg0 (nrm0 v0) (nrm0 v2) v6 := by
  have h : k0_pay3 v0 v2 v6 = lg0 (nrm0 (shapeCast S36x6x32x64 v0 shapeCasts_S36x6x32x64_S36x6x32x64)) (nrm0 (shapeCast S36x6x32x64 v2 shapeCasts_S36x6x32x64_S36x6x32x64)) v6 := rfl
  rw [h, shapeCast_self, shapeCast_self]

/-- The index over (b, d, i) with position j inserted on the last axis. -/
theorem lift0_j (b : Fin 36) (d : Fin 6) (i : Fin 32) (j : Fin 32) :
    reduces_S36x6x32x32_S36x6x32.lift (ix3 b d i) j = ix4 b d i j := by
  funext e; apply Fin.ext
  match e with
  | ⟨0, _⟩ => rfl
  | ⟨1, _⟩ => rfl
  | ⟨2, _⟩ => rfl
  | ⟨3, _⟩ => rfl

/-- Each row's peak: its maximum from minus infinity, then the larger of that and minus infinity. -/
def pk0 (v32 : FVec Ideal S36x6x32x32 .f32) : FVec Ideal S36x6x32x1 .f32 :=
  shapeCast S36x6x32x1 (maximumf (broadcast S36x6x32 (Scalar.ofBits .f32 0xFF800000#32)) (multiReduction .maximumf [3] S36x6x32 v32 0xFF800000#32 reduces_S36x6x32x32_S36x6x32 (.inl rfl) rfl)) shapeCasts_S36x6x32_S36x6x32x1

theorem pay4_eq0 (v0 v2 : Vec Ideal S36x6x32x64 .f32) (v6 : Vec Ideal S6x1x1 .f32) :
    k0_pay4 v0 v2 v6 = pk0 (k0_pay3 v0 v2 v6) := rfl

theorem pk0_apply (v32 : FVec Ideal S36x6x32x32 .f32) (b : Fin 36) (d : Fin 6) (i : Fin 32) :
    pk0 v32 (ix4 b d i 0) = Cert.Attend.peak (fun j => v32 (ix4 b d i j)) := by
  unfold pk0 Cert.Attend.peak
  rw [shapeCast_apply _ shapeCasts_S36x6x32_S36x6x32x1 (ix4 b d i 0) (ix3 b d i) (by
    rw [Shape.rowMajor_val_three, Shape.rowMajor_val_four]
    show (b.val * 6 + d.val) * 32 + i.val = ((b.val * 6 + d.val) * 32 + i.val) * 1 + 0
    omega)]
  rw [maximumf_apply]
  have h := Ideal.multiReduction_maximumf_single v32 0xFF800000#32 reduces_S36x6x32x32_S36x6x32 (.inl rfl) rfl (ix3 b d i)
  rw [h]
  have e : (v32 ∘ reduces_S36x6x32x32_S36x6x32.lift (ix3 b d i)) = fun j : Fin 32 => v32 (ix4 b d i j) :=
    funext fun j => congrArg v32 (lift0_j b d i j)
  rw [e]
  rfl

/-- The exponentials of a block less its rows' peaks. -/
def ex0 (v32 : FVec Ideal S36x6x32x32 .f32) (v36 : FVec Ideal S36x6x32x1 .f32) : FVec Ideal S36x6x32x32 .f32 :=
  exp (subf v32 (broadcastTo S36x6x32x32 v36 broadcasts_S36x6x32x1_S36x6x32x32))

theorem ex0_apply (v32 : FVec Ideal S36x6x32x32 .f32) (v36 : FVec Ideal S36x6x32x1 .f32) (b : Fin 36) (d : Fin 6) (i j : Fin 32) :
    ex0 v32 v36 (ix4 b d i j) = Ideal.exp (v32 (ix4 b d i j) - v36 (ix4 b d i 0)) := by
  unfold ex0
  show Ideal.exp (subf v32 _ (ix4 b d i j)) = _
  rw [subf_apply, broadcastTo_apply _ broadcasts_S36x6x32x1_S36x6x32x32 (ix4 b d i j) (ix4 b d i 0) (fun e => by
    match e with
    | ⟨0, _⟩ => rfl
    | ⟨1, _⟩ => rfl
    | ⟨2, _⟩ => rfl
    | ⟨3, _⟩ => rfl)]

/-- Each exponential over its row's total. -/
def wt0 (v32 : FVec Ideal S36x6x32x32 .f32) (v36 : FVec Ideal S36x6x32x1 .f32) : FVec Ideal S36x6x32x32 .f32 :=
  divf (ex0 v32 v36) (broadcastTo S36x6x32x32 (shapeCast S36x6x32x1 (multiReduction .add [3] S36x6x32 (ex0 v32 v36) 0x00000000#32 reduces_S36x6x32x32_S36x6x32 (.inl rfl) rfl) shapeCasts_S36x6x32_S36x6x32x1) broadcasts_S36x6x32x1_S36x6x32x32)

theorem wt0_apply (v32 : FVec Ideal S36x6x32x32 .f32) (v36 : FVec Ideal S36x6x32x1 .f32) (b : Fin 36) (d : Fin 6) (i j : Fin 32) :
    wt0 v32 v36 (ix4 b d i j) = Ideal.div (ex0 v32 v36 (ix4 b d i j)) (∑ j' : Fin 32, ex0 v32 v36 (ix4 b d i j')) := by
  unfold wt0
  rw [divf_apply]
  rw [broadcastTo_apply _ broadcasts_S36x6x32x1_S36x6x32x32 (ix4 b d i j) (ix4 b d i 0) (fun e => by
    match e with
    | ⟨0, _⟩ => rfl
    | ⟨1, _⟩ => rfl
    | ⟨2, _⟩ => rfl
    | ⟨3, _⟩ => rfl)]
  rw [shapeCast_apply _ shapeCasts_S36x6x32_S36x6x32x1 (ix4 b d i 0) (ix3 b d i) (by
    rw [Shape.rowMajor_val_three, Shape.rowMajor_val_four]
    show (b.val * 6 + d.val) * 32 + i.val = ((b.val * 6 + d.val) * 32 + i.val) * 1 + 0
    omega)]
  have h := Ideal.multiReduction_add_single (ex0 v32 v36) 0x00000000#32 reduces_S36x6x32x32_S36x6x32 (.inl rfl) rfl (ix3 b d i)
  rw [h]
  show Ideal.div _ (∑ k : Fin 32, ex0 v32 v36 (reduces_S36x6x32x32_S36x6x32.lift (ix3 b d i) k)) = _
  simp only [lift0_j]

theorem dB0_l0 (i : S216x32x64.Idx) (q : dot_S216x32x32_S216x32x64_S216x32x64_2_1_1_2_0_0.contr.Idx) : (dot_S216x32x32_S216x32x64_S216x32x64_2_1_1_2_0_0.lhsIdx i q 0).val = (i 0).val := by
  unfold DotDims.lhsIdx
  rw [dif_pos (show (0 : Fin S216x32x32.rank) ∈ dot_S216x32x32_S216x32x64_S216x32x64_2_1_1_2_0_0.lhsBatch by decide)]
  rfl
theorem dB0_l1 (i : S216x32x64.Idx) (q : dot_S216x32x32_S216x32x64_S216x32x64_2_1_1_2_0_0.contr.Idx) : (dot_S216x32x32_S216x32x64_S216x32x64_2_1_1_2_0_0.lhsIdx i q 1).val = (i 1).val := by
  unfold DotDims.lhsIdx
  rw [dif_neg (show ¬(1 : Fin S216x32x32.rank) ∈ dot_S216x32x32_S216x32x64_S216x32x64_2_1_1_2_0_0.lhsBatch by decide), dif_pos (show (1 : Fin S216x32x32.rank) ∈ dot_S216x32x32_S216x32x64_S216x32x64_2_1_1_2_0_0.lhsNonContracting by decide)]
  rfl
theorem dB0_l2 (i : S216x32x64.Idx) (q : dot_S216x32x32_S216x32x64_S216x32x64_2_1_1_2_0_0.contr.Idx) : (dot_S216x32x32_S216x32x64_S216x32x64_2_1_1_2_0_0.lhsIdx i q 2).val = (q ⟨0, by decide⟩).val :=
  dot_S216x32x32_S216x32x64_S216x32x64_2_1_1_2_0_0.lhsIdx_val_of_single rfl i q
theorem dB0_r0 (i : S216x32x64.Idx) (q : dot_S216x32x32_S216x32x64_S216x32x64_2_1_1_2_0_0.contr.Idx) : (dot_S216x32x32_S216x32x64_S216x32x64_2_1_1_2_0_0.rhsIdx i q 0).val = (i 0).val := by
  unfold DotDims.rhsIdx
  rw [dif_pos (show (0 : Fin S216x32x64.rank) ∈ dot_S216x32x32_S216x32x64_S216x32x64_2_1_1_2_0_0.rhsBatch by decide)]
  rfl
theorem dB0_r2 (i : S216x32x64.Idx) (q : dot_S216x32x32_S216x32x64_S216x32x64_2_1_1_2_0_0.contr.Idx) : (dot_S216x32x32_S216x32x64_S216x32x64_2_1_1_2_0_0.rhsIdx i q 2).val = (i 2).val := by
  unfold DotDims.rhsIdx
  rw [dif_neg (show ¬(2 : Fin S216x32x64.rank) ∈ dot_S216x32x32_S216x32x64_S216x32x64_2_1_1_2_0_0.rhsBatch by decide), dif_pos (show (2 : Fin S216x32x64.rank) ∈ dot_S216x32x32_S216x32x64_S216x32x64_2_1_1_2_0_0.rhsNonContracting by decide)]
  rfl
theorem dB0_r1 (i : S216x32x64.Idx) (q : dot_S216x32x32_S216x32x64_S216x32x64_2_1_1_2_0_0.contr.Idx) : (dot_S216x32x32_S216x32x64_S216x32x64_2_1_1_2_0_0.rhsIdx i q 1).val = (q ⟨0, by decide⟩).val :=
  dot_S216x32x32_S216x32x64_S216x32x64_2_1_1_2_0_0.rhsIdx_val_of_single rfl i q

/-- The second batched product at (n, i, c): the sum over positions j of the left operand at (n, i, j) times the right at (n, j, c). -/
theorem mmB0_apply (l : FVec Ideal S216x32x32 .bf16) (r : FVec Ideal S216x32x64 .bf16) (n : Fin 216) (i : Fin 32) (c : Fin 64) :
    matmul dot_S216x32x32_S216x32x64_S216x32x64_2_1_1_2_0_0 none l r (constant S216x32x64 .f32 0x00000000#32) (ix3 n i c)
      = ∑ j : Fin 32, l (ix3 n i j) * r (ix3 n j c) := by
  simp only [matmul]
  rw [Ideal.matmul_constant_zero_apply, ← Equiv.sum_comp (contrEquiv1 dot_S216x32x32_S216x32x64_S216x32x64_2_1_1_2_0_0 32 rfl rfl).symm]
  refine Finset.sum_congr rfl fun k _ => ?_
  have hk := contrEquiv1_symm_val dot_S216x32x32_S216x32x64_S216x32x64_2_1_1_2_0_0 32 rfl rfl k
  have el : dot_S216x32x32_S216x32x64_S216x32x64_2_1_1_2_0_0.lhsIdx (ix3 n i c) ((contrEquiv1 dot_S216x32x32_S216x32x64_S216x32x64_2_1_1_2_0_0 32 rfl rfl).symm k) = ix3 n i k := funext fun a => Fin.ext (by
    match a with
    | ⟨0, _⟩ => exact dB0_l0 _ _
    | ⟨1, _⟩ => exact dB0_l1 _ _
    | ⟨2, _⟩ => exact (dB0_l2 _ _).trans hk)
  have er : dot_S216x32x32_S216x32x64_S216x32x64_2_1_1_2_0_0.rhsIdx (ix3 n i c) ((contrEquiv1 dot_S216x32x32_S216x32x64_S216x32x64_2_1_1_2_0_0 32 rfl rfl).symm k) = ix3 n k c := funext fun a => Fin.ext (by
    match a with
    | ⟨0, _⟩ => exact dB0_r0 _ _
    | ⟨1, _⟩ => exact (dB0_r1 _ _).trans hk
    | ⟨2, _⟩ => exact dB0_r2 _ _)
  rw [el, er]

/-- The weighted sums of the value rows: a batched product over the merged batch axis. -/
def av0 (v5 : FVec Ideal S36x6x32x64 .f32) (w : FVec Ideal S36x6x32x32 .f32) : FVec Ideal S36x6x32x64 .f32 :=
  shapeCast S36x6x32x64 (matmul dot_S216x32x32_S216x32x64_S216x32x64_2_1_1_2_0_0 none (truncf .bf16 (shapeCast S216x32x32 w shapeCasts_S36x6x32x32_S216x32x32) bitsLt_bf16_f32) (truncf .bf16 (shapeCast S216x32x64 v5 shapeCasts_S36x6x32x64_S216x32x64) bitsLt_bf16_f32) (constant S216x32x64 .f32 0x00000000#32)) shapeCasts_S216x32x64_S36x6x32x64

theorem av0_apply (v5 : FVec Ideal S36x6x32x64 .f32) (w : FVec Ideal S36x6x32x32 .f32) (b : Fin 36) (d : Fin 6) (i : Fin 32) (c : Fin 64) :
    av0 v5 w (ix4 b d i c) = ∑ j : Fin 32, w (ix4 b d i j) * v5 (ix4 b d j c) := by
  unfold av0
  rw [shapeCast_apply _ shapeCasts_S216x32x64_S36x6x32x64 (ix4 b d i c) (ix3 (mrg0 b d) i c) (by
    rw [Shape.rowMajor_val_three, Shape.rowMajor_val_four]
    show ((6 * b.val + d.val) * 32 + i.val) * 64 + c.val = ((b.val * 6 + d.val) * 32 + i.val) * 64 + c.val
    omega)]
  rw [mmB0_apply]
  refine Finset.sum_congr rfl fun j _ => ?_
  rw [truncf_apply, truncf_apply, cast0_j, cast0_c]

theorem pay1_eq0 (v5 : FVec Ideal S36x6x32x64 .f32) (v32 : FVec Ideal S36x6x32x32 .f32) (v36 : FVec Ideal S36x6x32x1 .f32) :
    k0_pay1 v5 v32 v36 = av0 v5 (wt0 v32 v36) := rfl

theorem pay2_eq0 (v4 : Vec Ideal S36x6x32x64 .f32) : k0_pay2 v4 = v4 := by
  unfold k0_pay2; exact shapeCast_self _ _

/-- The logits of group b, head d, as the specification writes them. -/
theorem lgn0_apply (x0 x1 : Vec Ideal S36x6x32x64 .f32) (x3 : Vec Ideal S6x1x1 .f32) (b : Fin 36) (d : Fin 6) (i j : Fin 32) :
    lg0 (nrm0 x0) (nrm0 x1) x3 (ix4 b d i j)
      = Cert.Attend.logit (fun a' c' => x0 (ix4 b d a' c')) (fun a' c' => x1 (ix4 b d a' c')) (x3 (ix3 d 0 0)) i j := by
  rw [lg0_apply]
  simp only [nrm0_apply]
  rfl

theorem region0 (x0 x1 x2 : Vec Ideal S36x6x32x64 .f32) (x3 : Vec Ideal S6x1x1 .f32) (b : Fin 36) (d : Fin 6) (a : Fin 32) (c : Fin 64) :
    out0_4 (F := Ideal) x0 x1 x2 x3 (ix4 b d a c) = Cert.Attend.attend (fun a' c' => x0 (ix4 b d a' c')) (fun a' c' => x1 (ix4 b d a' c')) (fun a' c' => x2 (ix4 b d a' c')) (x3 (ix3 d 0 0)) a c := by
  rw [out0_eq, pay4_eq0, pay3_eq0, pay2_eq0, pay1_eq0, av0_apply]
  unfold Cert.Attend.attend Cert.Attend.weight
  refine Finset.sum_congr rfl fun j _ => ?_
  rw [wt0_apply]
  simp only [ex0_apply, pk0_apply, lgn0_apply]

/-! ## The second region: 144 groups of 8 positions -/

theorem out1_eq (x0 x1 x2 : Vec Ideal S144x6x8x64 .f32) (x3 : Vec Ideal S6x1x1 .f32) :
    out1_4 (F := Ideal) x0 x1 x2 x3 = k1_pay1 (k1_pay2 x2) (k1_pay3 x0 x1 x3) (k1_pay4 x0 x1 x3) := by
  unfold out1_4
  rw [View.canon_unit_zero hz4]
  simp only [View.ld_unit_zero (S := S144x6x8x64) hz4, View.ld_unit_zero (S := S6x1x1) hz3]

/-- The index over (b, d, a) with channel k inserted on the last axis. -/
theorem lift1_c (b : Fin 144) (d : Fin 6) (a : Fin 8) (k : Fin 64) :
    reduces_S144x6x8x64_S144x6x8.lift (ix3 b d a) k = ix4 b d a k := by
  funext e; apply Fin.ext
  match e with
  | ⟨0, _⟩ => rfl
  | ⟨1, _⟩ => rfl
  | ⟨2, _⟩ => rfl
  | ⟨3, _⟩ => rfl

/-- A block with every row divided by the larger of its norm and the floor. -/
def nrm1 (x : FVec Ideal S144x6x8x64 .f32) : FVec Ideal S144x6x8x64 .f32 :=
  divf x (broadcastTo S144x6x8x64 (maximumf (sqrt (shapeCast S144x6x8x1 (multiReduction .add [3] S144x6x8 (mulf x x) 0x00000000#32 reduces_S144x6x8x64_S144x6x8 (.inl rfl) rfl) shapeCasts_S144x6x8_S144x6x8x1)) (broadcast S144x6x8x1 (Scalar.ofBits .f32 0x2B8CBCCC#32))) broadcasts_S144x6x8x1_S144x6x8x64)

theorem nrm1_apply (x : FVec Ideal S144x6x8x64 .f32) (b : Fin 144) (d : Fin 6) (a : Fin 8) (c : Fin 64) :
    nrm1 x (ix4 b d a c) = Cert.Attend.unit (fun c' => x (ix4 b d a c')) c := by
  unfold nrm1 Cert.Attend.unit
  rw [divf_apply]
  rw [broadcastTo_apply _ broadcasts_S144x6x8x1_S144x6x8x64 (ix4 b d a c) (ix4 b d a 0) (fun e => by
    match e with
    | ⟨0, _⟩ => rfl
    | ⟨1, _⟩ => rfl
    | ⟨2, _⟩ => rfl
    | ⟨3, _⟩ => rfl)]
  rw [maximumf_apply]
  show Ideal.div _ (max (Ideal.sqrt (shapeCast S144x6x8x1 _ _ _)) _) = _
  rw [shapeCast_apply _ shapeCasts_S144x6x8_S144x6x8x1 (ix4 b d a 0) (ix3 b d a) (by
    rw [Shape.rowMajor_val_three, Shape.rowMajor_val_four]
    show (b.val * 6 + d.val) * 8 + a.val = ((b.val * 6 + d.val) * 8 + a.val) * 1 + 0
    omega)]
  have h := Ideal.multiReduction_add_single (mulf x x) 0x00000000#32 reduces_S144x6x8x64_S144x6x8 (.inl rfl) rfl (ix3 b d a)
  rw [h]
  show Ideal.div (x (ix4 b d a c)) (max (Ideal.sqrt (∑ k : Fin 64, mulf x x (reduces_S144x6x8x64_S144x6x8.lift (ix3 b d a) k))) Cert.Attend.floor) = Ideal.div (x (ix4 b d a c)) (max (Ideal.sqrt (∑ k : Fin 64, x (ix4 b d a k) * x (ix4 b d a k))) Cert.Attend.floor)
  simp only [lift1_c, mulf_apply]

theorem dA1_l0 (i : S864x8x8.Idx) (q : dot_S864x8x64_S864x8x64_S864x8x8_2_2_1_1_0_0.contr.Idx) : (dot_S864x8x64_S864x8x64_S864x8x8_2_2_1_1_0_0.lhsIdx i q 0).val = (i 0).val := by
  unfold DotDims.lhsIdx
  rw [dif_pos (show (0 : Fin S864x8x64.rank) ∈ dot_S864x8x64_S864x8x64_S864x8x8_2_2_1_1_0_0.lhsBatch by decide)]
  rfl
theorem dA1_l1 (i : S864x8x8.Idx) (q : dot_S864x8x64_S864x8x64_S864x8x8_2_2_1_1_0_0.contr.Idx) : (dot_S864x8x64_S864x8x64_S864x8x8_2_2_1_1_0_0.lhsIdx i q 1).val = (i 1).val := by
  unfold DotDims.lhsIdx
  rw [dif_neg (show ¬(1 : Fin S864x8x64.rank) ∈ dot_S864x8x64_S864x8x64_S864x8x8_2_2_1_1_0_0.lhsBatch by decide), dif_pos (show (1 : Fin S864x8x64.rank) ∈ dot_S864x8x64_S864x8x64_S864x8x8_2_2_1_1_0_0.lhsNonContracting by decide)]
  rfl
theorem dA1_l2 (i : S864x8x8.Idx) (q : dot_S864x8x64_S864x8x64_S864x8x8_2_2_1_1_0_0.contr.Idx) : (dot_S864x8x64_S864x8x64_S864x8x8_2_2_1_1_0_0.lhsIdx i q 2).val = (q ⟨0, by decide⟩).val :=
  dot_S864x8x64_S864x8x64_S864x8x8_2_2_1_1_0_0.lhsIdx_val_of_single rfl i q
theorem dA1_r0 (i : S864x8x8.Idx) (q : dot_S864x8x64_S864x8x64_S864x8x8_2_2_1_1_0_0.contr.Idx) : (dot_S864x8x64_S864x8x64_S864x8x8_2_2_1_1_0_0.rhsIdx i q 0).val = (i 0).val := by
  unfold DotDims.rhsIdx
  rw [dif_pos (show (0 : Fin S864x8x64.rank) ∈ dot_S864x8x64_S864x8x64_S864x8x8_2_2_1_1_0_0.rhsBatch by decide)]
  rfl
theorem dA1_r1 (i : S864x8x8.Idx) (q : dot_S864x8x64_S864x8x64_S864x8x8_2_2_1_1_0_0.contr.Idx) : (dot_S864x8x64_S864x8x64_S864x8x8_2_2_1_1_0_0.rhsIdx i q 1).val = (i 2).val := by
  unfold DotDims.rhsIdx
  rw [dif_neg (show ¬(1 : Fin S864x8x64.rank) ∈ dot_S864x8x64_S864x8x64_S864x8x8_2_2_1_1_0_0.rhsBatch by decide), dif_pos (show (1 : Fin S864x8x64.rank) ∈ dot_S864x8x64_S864x8x64_S864x8x8_2_2_1_1_0_0.rhsNonContracting by decide)]
  rfl
theorem dA1_r2 (i : S864x8x8.Idx) (q : dot_S864x8x64_S864x8x64_S864x8x8_2_2_1_1_0_0.contr.Idx) : (dot_S864x8x64_S864x8x64_S864x8x8_2_2_1_1_0_0.rhsIdx i q 2).val = (q ⟨0, by decide⟩).val :=
  dot_S864x8x64_S864x8x64_S864x8x8_2_2_1_1_0_0.rhsIdx_val_of_single rfl i q

/-- The first batched product at (n, i, j): the sum over channels of the two operands' rows i and j of batch n. -/
theorem mmA1_apply (l r : FVec Ideal S864x8x64 .bf16) (n : Fin 864) (i j : Fin 8) :
    matmul dot_S864x8x64_S864x8x64_S864x8x8_2_2_1_1_0_0 none l r (constant S864x8x8 .f32 0x00000000#32) (ix3 n i j)
      = ∑ c : Fin 64, l (ix3 n i c) * r (ix3 n j c) := by
  simp only [matmul]
  rw [Ideal.matmul_constant_zero_apply, ← Equiv.sum_comp (contrEquiv1 dot_S864x8x64_S864x8x64_S864x8x8_2_2_1_1_0_0 64 rfl rfl).symm]
  refine Finset.sum_congr rfl fun k _ => ?_
  have hk := contrEquiv1_symm_val dot_S864x8x64_S864x8x64_S864x8x8_2_2_1_1_0_0 64 rfl rfl k
  have el : dot_S864x8x64_S864x8x64_S864x8x8_2_2_1_1_0_0.lhsIdx (ix3 n i j) ((contrEquiv1 dot_S864x8x64_S864x8x64_S864x8x8_2_2_1_1_0_0 64 rfl rfl).symm k) = ix3 n i k := funext fun a => Fin.ext (by
    match a with
    | ⟨0, _⟩ => exact dA1_l0 _ _
    | ⟨1, _⟩ => exact dA1_l1 _ _
    | ⟨2, _⟩ => exact (dA1_l2 _ _).trans hk)
  have er : dot_S864x8x64_S864x8x64_S864x8x8_2_2_1_1_0_0.rhsIdx (ix3 n i j) ((contrEquiv1 dot_S864x8x64_S864x8x64_S864x8x8_2_2_1_1_0_0 64 rfl rfl).symm k) = ix3 n j k := funext fun a => Fin.ext (by
    match a with
    | ⟨0, _⟩ => exact dA1_r0 _ _
    | ⟨1, _⟩ => exact dA1_r1 _ _
    | ⟨2, _⟩ => exact (dA1_r2 _ _).trans hk)
  rw [el, er]

/-- The merged batch coordinate of group b and head d. -/
def mrg1 (b : Fin 144) (d : Fin 6) : Fin 864 := ⟨6 * b.val + d.val, by have := b.isLt; have := d.isLt; omega⟩

/-- A [144,6,8,64] block viewed with its two batch axes merged, read at the merged coordinate. -/
theorem cast1_c (x : FVec Ideal S144x6x8x64 .f32) (b : Fin 144) (d : Fin 6) (i : Fin 8) (c : Fin 64) :
    shapeCast S864x8x64 x shapeCasts_S144x6x8x64_S864x8x64 (ix3 (mrg1 b d) i c) = x (ix4 b d i c) :=
  shapeCast_apply x shapeCasts_S144x6x8x64_S864x8x64 (ix3 (mrg1 b d) i c) (ix4 b d i c) (by
    rw [Shape.rowMajor_val_three, Shape.rowMajor_val_four]
    show ((b.val * 6 + d.val) * 8 + i.val) * 64 + c.val = ((6 * b.val + d.val) * 8 + i.val) * 64 + c.val
    omega)

/-- The same for a [144,6,8,8] block. -/
theorem cast1_j (x : FVec Ideal S144x6x8x8 .f32) (b : Fin 144) (d : Fin 6) (i : Fin 8) (j : Fin 8) :
    shapeCast S864x8x8 x shapeCasts_S144x6x8x8_S864x8x8 (ix3 (mrg1 b d) i j) = x (ix4 b d i j) :=
  shapeCast_apply x shapeCasts_S144x6x8x8_S864x8x8 (ix3 (mrg1 b d) i j) (ix4 b d i j) (by
    rw [Shape.rowMajor_val_three, Shape.rowMajor_val_four]
    show ((b.val * 6 + d.val) * 8 + i.val) * 8 + j.val = ((6 * b.val + d.val) * 8 + i.val) * 8 + j.val
    omega)

/-- The scaled products of two blocks' rows: a batched product over the merged batch axis, times the head's scale. -/
def lg1 (n0 n1 : FVec Ideal S144x6x8x64 .f32) (v6 : Vec Ideal S6x1x1 .f32) : FVec Ideal S144x6x8x8 .f32 :=
  mulf (shapeCast S144x6x8x8 (matmul dot_S864x8x64_S864x8x64_S864x8x8_2_2_1_1_0_0 none (truncf .bf16 (shapeCast S864x8x64 n0 shapeCasts_S144x6x8x64_S864x8x64) bitsLt_bf16_f32) (truncf .bf16 (shapeCast S864x8x64 n1 shapeCasts_S144x6x8x64_S864x8x64) bitsLt_bf16_f32) (constant S864x8x8 .f32 0x00000000#32)) shapeCasts_S864x8x8_S144x6x8x8) (broadcastTo S144x6x8x8 (shapeCast S1x6x1x1 (shapeCast S6x1x1 v6 shapeCasts_S6x1x1_S6x1x1) shapeCasts_S6x1x1_S1x6x1x1) broadcasts_S1x6x1x1_S144x6x8x8)

theorem lg1_apply (n0 n1 : FVec Ideal S144x6x8x64 .f32) (v6 : Vec Ideal S6x1x1 .f32) (b : Fin 144) (d : Fin 6) (i j : Fin 8) :
    lg1 n0 n1 v6 (ix4 b d i j) = (∑ c : Fin 64, n0 (ix4 b d i c) * n1 (ix4 b d j c)) * v6 (ix3 d 0 0) := by
  unfold lg1
  rw [mulf_apply]
  rw [shapeCast_apply _ shapeCasts_S864x8x8_S144x6x8x8 (ix4 b d i j) (ix3 (mrg1 b d) i j) (by
    rw [Shape.rowMajor_val_three, Shape.rowMajor_val_four]
    show ((6 * b.val + d.val) * 8 + i.val) * 8 + j.val = ((b.val * 6 + d.val) * 8 + i.val) * 8 + j.val
    omega)]
  rw [mmA1_apply]
  rw [broadcastTo_apply _ broadcasts_S1x6x1x1_S144x6x8x8 (ix4 b d i j) (ix4 0 d 0 0) (fun e => by
    match e with
    | ⟨0, _⟩ => rfl
    | ⟨1, _⟩ => rfl
    | ⟨2, _⟩ => rfl
    | ⟨3, _⟩ => rfl)]
  rw [shapeCast_apply _ shapeCasts_S6x1x1_S1x6x1x1 (ix4 0 d 0 0) (ix3 d 0 0) (by
    rw [Shape.rowMajor_val_three, Shape.rowMajor_val_four]
    show (d.val * 1 + 0) * 1 + 0 = ((0 * 6 + d.val) * 1 + 0) * 1 + 0
    omega)]
  rw [shapeCast_self]
  refine congrArg (· * v6 (ix3 d 0 0)) (Finset.sum_congr rfl fun c _ => ?_)
  rw [truncf_apply, truncf_apply, cast1_c, cast1_c]

theorem pay3_eq1 (v0 v2 : Vec Ideal S144x6x8x64 .f32) (v6 : Vec Ideal S6x1x1 .f32) :
    k1_pay3 v0 v2 v6 = lg1 (nrm1 v0) (nrm1 v2) v6 := by
  have h : k1_pay3 v0 v2 v6 = lg1 (nrm1 (shapeCast S144x6x8x64 v0 shapeCasts_S144x6x8x64_S144x6x8x64)) (nrm1 (shapeCast S144x6x8x64 v2 shapeCasts_S144x6x8x64_S144x6x8x64)) v6 := rfl
  rw [h, shapeCast_self, shapeCast_self]

/-- The index over (b, d, i) with position j inserted on the last axis. -/
theorem lift1_j (b : Fin 144) (d : Fin 6) (i : Fin 8) (j : Fin 8) :
    reduces_S144x6x8x8_S144x6x8.lift (ix3 b d i) j = ix4 b d i j := by
  funext e; apply Fin.ext
  match e with
  | ⟨0, _⟩ => rfl
  | ⟨1, _⟩ => rfl
  | ⟨2, _⟩ => rfl
  | ⟨3, _⟩ => rfl

/-- Each row's peak: its maximum from minus infinity, then the larger of that and minus infinity. -/
def pk1 (v32 : FVec Ideal S144x6x8x8 .f32) : FVec Ideal S144x6x8x1 .f32 :=
  shapeCast S144x6x8x1 (maximumf (broadcast S144x6x8 (Scalar.ofBits .f32 0xFF800000#32)) (multiReduction .maximumf [3] S144x6x8 v32 0xFF800000#32 reduces_S144x6x8x8_S144x6x8 (.inl rfl) rfl)) shapeCasts_S144x6x8_S144x6x8x1

theorem pay4_eq1 (v0 v2 : Vec Ideal S144x6x8x64 .f32) (v6 : Vec Ideal S6x1x1 .f32) :
    k1_pay4 v0 v2 v6 = pk1 (k1_pay3 v0 v2 v6) := rfl

theorem pk1_apply (v32 : FVec Ideal S144x6x8x8 .f32) (b : Fin 144) (d : Fin 6) (i : Fin 8) :
    pk1 v32 (ix4 b d i 0) = Cert.Attend.peak (fun j => v32 (ix4 b d i j)) := by
  unfold pk1 Cert.Attend.peak
  rw [shapeCast_apply _ shapeCasts_S144x6x8_S144x6x8x1 (ix4 b d i 0) (ix3 b d i) (by
    rw [Shape.rowMajor_val_three, Shape.rowMajor_val_four]
    show (b.val * 6 + d.val) * 8 + i.val = ((b.val * 6 + d.val) * 8 + i.val) * 1 + 0
    omega)]
  rw [maximumf_apply]
  have h := Ideal.multiReduction_maximumf_single v32 0xFF800000#32 reduces_S144x6x8x8_S144x6x8 (.inl rfl) rfl (ix3 b d i)
  rw [h]
  have e : (v32 ∘ reduces_S144x6x8x8_S144x6x8.lift (ix3 b d i)) = fun j : Fin 8 => v32 (ix4 b d i j) :=
    funext fun j => congrArg v32 (lift1_j b d i j)
  rw [e]
  rfl

/-- The exponentials of a block less its rows' peaks. -/
def ex1 (v32 : FVec Ideal S144x6x8x8 .f32) (v36 : FVec Ideal S144x6x8x1 .f32) : FVec Ideal S144x6x8x8 .f32 :=
  exp (subf v32 (broadcastTo S144x6x8x8 v36 broadcasts_S144x6x8x1_S144x6x8x8))

theorem ex1_apply (v32 : FVec Ideal S144x6x8x8 .f32) (v36 : FVec Ideal S144x6x8x1 .f32) (b : Fin 144) (d : Fin 6) (i j : Fin 8) :
    ex1 v32 v36 (ix4 b d i j) = Ideal.exp (v32 (ix4 b d i j) - v36 (ix4 b d i 0)) := by
  unfold ex1
  show Ideal.exp (subf v32 _ (ix4 b d i j)) = _
  rw [subf_apply, broadcastTo_apply _ broadcasts_S144x6x8x1_S144x6x8x8 (ix4 b d i j) (ix4 b d i 0) (fun e => by
    match e with
    | ⟨0, _⟩ => rfl
    | ⟨1, _⟩ => rfl
    | ⟨2, _⟩ => rfl
    | ⟨3, _⟩ => rfl)]

/-- Each exponential over its row's total. -/
def wt1 (v32 : FVec Ideal S144x6x8x8 .f32) (v36 : FVec Ideal S144x6x8x1 .f32) : FVec Ideal S144x6x8x8 .f32 :=
  divf (ex1 v32 v36) (broadcastTo S144x6x8x8 (shapeCast S144x6x8x1 (multiReduction .add [3] S144x6x8 (ex1 v32 v36) 0x00000000#32 reduces_S144x6x8x8_S144x6x8 (.inl rfl) rfl) shapeCasts_S144x6x8_S144x6x8x1) broadcasts_S144x6x8x1_S144x6x8x8)

theorem wt1_apply (v32 : FVec Ideal S144x6x8x8 .f32) (v36 : FVec Ideal S144x6x8x1 .f32) (b : Fin 144) (d : Fin 6) (i j : Fin 8) :
    wt1 v32 v36 (ix4 b d i j) = Ideal.div (ex1 v32 v36 (ix4 b d i j)) (∑ j' : Fin 8, ex1 v32 v36 (ix4 b d i j')) := by
  unfold wt1
  rw [divf_apply]
  rw [broadcastTo_apply _ broadcasts_S144x6x8x1_S144x6x8x8 (ix4 b d i j) (ix4 b d i 0) (fun e => by
    match e with
    | ⟨0, _⟩ => rfl
    | ⟨1, _⟩ => rfl
    | ⟨2, _⟩ => rfl
    | ⟨3, _⟩ => rfl)]
  rw [shapeCast_apply _ shapeCasts_S144x6x8_S144x6x8x1 (ix4 b d i 0) (ix3 b d i) (by
    rw [Shape.rowMajor_val_three, Shape.rowMajor_val_four]
    show (b.val * 6 + d.val) * 8 + i.val = ((b.val * 6 + d.val) * 8 + i.val) * 1 + 0
    omega)]
  have h := Ideal.multiReduction_add_single (ex1 v32 v36) 0x00000000#32 reduces_S144x6x8x8_S144x6x8 (.inl rfl) rfl (ix3 b d i)
  rw [h]
  show Ideal.div _ (∑ k : Fin 8, ex1 v32 v36 (reduces_S144x6x8x8_S144x6x8.lift (ix3 b d i) k)) = _
  simp only [lift1_j]

theorem dB1_l0 (i : S864x8x64.Idx) (q : dot_S864x8x8_S864x8x64_S864x8x64_2_1_1_2_0_0.contr.Idx) : (dot_S864x8x8_S864x8x64_S864x8x64_2_1_1_2_0_0.lhsIdx i q 0).val = (i 0).val := by
  unfold DotDims.lhsIdx
  rw [dif_pos (show (0 : Fin S864x8x8.rank) ∈ dot_S864x8x8_S864x8x64_S864x8x64_2_1_1_2_0_0.lhsBatch by decide)]
  rfl
theorem dB1_l1 (i : S864x8x64.Idx) (q : dot_S864x8x8_S864x8x64_S864x8x64_2_1_1_2_0_0.contr.Idx) : (dot_S864x8x8_S864x8x64_S864x8x64_2_1_1_2_0_0.lhsIdx i q 1).val = (i 1).val := by
  unfold DotDims.lhsIdx
  rw [dif_neg (show ¬(1 : Fin S864x8x8.rank) ∈ dot_S864x8x8_S864x8x64_S864x8x64_2_1_1_2_0_0.lhsBatch by decide), dif_pos (show (1 : Fin S864x8x8.rank) ∈ dot_S864x8x8_S864x8x64_S864x8x64_2_1_1_2_0_0.lhsNonContracting by decide)]
  rfl
theorem dB1_l2 (i : S864x8x64.Idx) (q : dot_S864x8x8_S864x8x64_S864x8x64_2_1_1_2_0_0.contr.Idx) : (dot_S864x8x8_S864x8x64_S864x8x64_2_1_1_2_0_0.lhsIdx i q 2).val = (q ⟨0, by decide⟩).val :=
  dot_S864x8x8_S864x8x64_S864x8x64_2_1_1_2_0_0.lhsIdx_val_of_single rfl i q
theorem dB1_r0 (i : S864x8x64.Idx) (q : dot_S864x8x8_S864x8x64_S864x8x64_2_1_1_2_0_0.contr.Idx) : (dot_S864x8x8_S864x8x64_S864x8x64_2_1_1_2_0_0.rhsIdx i q 0).val = (i 0).val := by
  unfold DotDims.rhsIdx
  rw [dif_pos (show (0 : Fin S864x8x64.rank) ∈ dot_S864x8x8_S864x8x64_S864x8x64_2_1_1_2_0_0.rhsBatch by decide)]
  rfl
theorem dB1_r2 (i : S864x8x64.Idx) (q : dot_S864x8x8_S864x8x64_S864x8x64_2_1_1_2_0_0.contr.Idx) : (dot_S864x8x8_S864x8x64_S864x8x64_2_1_1_2_0_0.rhsIdx i q 2).val = (i 2).val := by
  unfold DotDims.rhsIdx
  rw [dif_neg (show ¬(2 : Fin S864x8x64.rank) ∈ dot_S864x8x8_S864x8x64_S864x8x64_2_1_1_2_0_0.rhsBatch by decide), dif_pos (show (2 : Fin S864x8x64.rank) ∈ dot_S864x8x8_S864x8x64_S864x8x64_2_1_1_2_0_0.rhsNonContracting by decide)]
  rfl
theorem dB1_r1 (i : S864x8x64.Idx) (q : dot_S864x8x8_S864x8x64_S864x8x64_2_1_1_2_0_0.contr.Idx) : (dot_S864x8x8_S864x8x64_S864x8x64_2_1_1_2_0_0.rhsIdx i q 1).val = (q ⟨0, by decide⟩).val :=
  dot_S864x8x8_S864x8x64_S864x8x64_2_1_1_2_0_0.rhsIdx_val_of_single rfl i q

/-- The second batched product at (n, i, c): the sum over positions j of the left operand at (n, i, j) times the right at (n, j, c). -/
theorem mmB1_apply (l : FVec Ideal S864x8x8 .bf16) (r : FVec Ideal S864x8x64 .bf16) (n : Fin 864) (i : Fin 8) (c : Fin 64) :
    matmul dot_S864x8x8_S864x8x64_S864x8x64_2_1_1_2_0_0 none l r (constant S864x8x64 .f32 0x00000000#32) (ix3 n i c)
      = ∑ j : Fin 8, l (ix3 n i j) * r (ix3 n j c) := by
  simp only [matmul]
  rw [Ideal.matmul_constant_zero_apply, ← Equiv.sum_comp (contrEquiv1 dot_S864x8x8_S864x8x64_S864x8x64_2_1_1_2_0_0 8 rfl rfl).symm]
  refine Finset.sum_congr rfl fun k _ => ?_
  have hk := contrEquiv1_symm_val dot_S864x8x8_S864x8x64_S864x8x64_2_1_1_2_0_0 8 rfl rfl k
  have el : dot_S864x8x8_S864x8x64_S864x8x64_2_1_1_2_0_0.lhsIdx (ix3 n i c) ((contrEquiv1 dot_S864x8x8_S864x8x64_S864x8x64_2_1_1_2_0_0 8 rfl rfl).symm k) = ix3 n i k := funext fun a => Fin.ext (by
    match a with
    | ⟨0, _⟩ => exact dB1_l0 _ _
    | ⟨1, _⟩ => exact dB1_l1 _ _
    | ⟨2, _⟩ => exact (dB1_l2 _ _).trans hk)
  have er : dot_S864x8x8_S864x8x64_S864x8x64_2_1_1_2_0_0.rhsIdx (ix3 n i c) ((contrEquiv1 dot_S864x8x8_S864x8x64_S864x8x64_2_1_1_2_0_0 8 rfl rfl).symm k) = ix3 n k c := funext fun a => Fin.ext (by
    match a with
    | ⟨0, _⟩ => exact dB1_r0 _ _
    | ⟨1, _⟩ => exact (dB1_r1 _ _).trans hk
    | ⟨2, _⟩ => exact dB1_r2 _ _)
  rw [el, er]

/-- The weighted sums of the value rows: a batched product over the merged batch axis. -/
def av1 (v5 : FVec Ideal S144x6x8x64 .f32) (w : FVec Ideal S144x6x8x8 .f32) : FVec Ideal S144x6x8x64 .f32 :=
  shapeCast S144x6x8x64 (matmul dot_S864x8x8_S864x8x64_S864x8x64_2_1_1_2_0_0 none (truncf .bf16 (shapeCast S864x8x8 w shapeCasts_S144x6x8x8_S864x8x8) bitsLt_bf16_f32) (truncf .bf16 (shapeCast S864x8x64 v5 shapeCasts_S144x6x8x64_S864x8x64) bitsLt_bf16_f32) (constant S864x8x64 .f32 0x00000000#32)) shapeCasts_S864x8x64_S144x6x8x64

theorem av1_apply (v5 : FVec Ideal S144x6x8x64 .f32) (w : FVec Ideal S144x6x8x8 .f32) (b : Fin 144) (d : Fin 6) (i : Fin 8) (c : Fin 64) :
    av1 v5 w (ix4 b d i c) = ∑ j : Fin 8, w (ix4 b d i j) * v5 (ix4 b d j c) := by
  unfold av1
  rw [shapeCast_apply _ shapeCasts_S864x8x64_S144x6x8x64 (ix4 b d i c) (ix3 (mrg1 b d) i c) (by
    rw [Shape.rowMajor_val_three, Shape.rowMajor_val_four]
    show ((6 * b.val + d.val) * 8 + i.val) * 64 + c.val = ((b.val * 6 + d.val) * 8 + i.val) * 64 + c.val
    omega)]
  rw [mmB1_apply]
  refine Finset.sum_congr rfl fun j _ => ?_
  rw [truncf_apply, truncf_apply, cast1_j, cast1_c]

theorem pay1_eq1 (v5 : FVec Ideal S144x6x8x64 .f32) (v32 : FVec Ideal S144x6x8x8 .f32) (v36 : FVec Ideal S144x6x8x1 .f32) :
    k1_pay1 v5 v32 v36 = av1 v5 (wt1 v32 v36) := rfl

theorem pay2_eq1 (v4 : Vec Ideal S144x6x8x64 .f32) : k1_pay2 v4 = v4 := by
  unfold k1_pay2; exact shapeCast_self _ _

/-- The logits of group b, head d, as the specification writes them. -/
theorem lgn1_apply (x0 x1 : Vec Ideal S144x6x8x64 .f32) (x3 : Vec Ideal S6x1x1 .f32) (b : Fin 144) (d : Fin 6) (i j : Fin 8) :
    lg1 (nrm1 x0) (nrm1 x1) x3 (ix4 b d i j)
      = Cert.Attend.logit (fun a' c' => x0 (ix4 b d a' c')) (fun a' c' => x1 (ix4 b d a' c')) (x3 (ix3 d 0 0)) i j := by
  rw [lg1_apply]
  simp only [nrm1_apply]
  rfl

theorem region1 (x0 x1 x2 : Vec Ideal S144x6x8x64 .f32) (x3 : Vec Ideal S6x1x1 .f32) (b : Fin 144) (d : Fin 6) (a : Fin 8) (c : Fin 64) :
    out1_4 (F := Ideal) x0 x1 x2 x3 (ix4 b d a c) = Cert.Attend.attend (fun a' c' => x0 (ix4 b d a' c')) (fun a' c' => x1 (ix4 b d a' c')) (fun a' c' => x2 (ix4 b d a' c')) (x3 (ix3 d 0 0)) a c := by
  rw [out1_eq, pay4_eq1, pay3_eq1, pay2_eq1, pay1_eq1, av1_apply]
  unfold Cert.Attend.attend Cert.Attend.weight
  refine Finset.sum_congr rfl fun j _ => ?_
  rw [wt1_apply]
  simp only [ex1_apply, pk1_apply, lgn1_apply]

end Cert.KerRead

end
-- ==== Proof.Relayout.lean ====
/-
  The two re-layouts between and after the attentions, each named once.

  `regroup` takes the spatial result, laid out [(b t u v), head, (h w), channel], to the temporal branch's layout
  [(b u h v w), head, t, channel]: split the two merged axes, permute, merge again.  `ungroup` takes the temporal
  result back to the video layout [b, (head channel), t, (u h), (v w)].  Both only move entries; nothing here looks
  inside them, and the reference's own operations are these two functions of its two attention results.
-/
import proofs.«113070_j68642167324784_2_alg».proof.Proof.Gen.ReferenceIdeal.Read

noncomputable section

namespace Cert.Relayout

open Cert.ReferenceIdeal Cert.ReferenceIdeal.Gen Cert.ReferenceIdeal.Read Idealize.ShloMosaic

/-- From windows to pixels. -/
def regroup (x : S4608x6x32x64.Idx → EReal) : S18432x6x8x64.Idx → EReal :=
  shapeCast S18432x6x8x64
    (transpose S2x24x4x12x8x6x8x64 [0, 2, 5, 3, 6, 4, 1, 7]
      (shapeCast S2x8x24x12x6x4x8x64 x shapeCasts_S4608x6x32x64_S2x8x24x12x6x4x8x64)
      transposes_S2x8x24x12x6x4x8x64_S2x24x4x12x8x6x8x64_0_2_5_3_6_4_1_7)
    shapeCasts_S2x24x4x12x8x6x8x64_S18432x6x8x64

/-- From pixels back to the video. -/
def ungroup (x : S18432x6x8x64.Idx → EReal) : S2x384x8x96x96.Idx → EReal :=
  shapeCast S2x384x8x96x96
    (transpose S2x6x64x8x24x4x12x8 [0, 5, 7, 6, 1, 2, 3, 4]
      (shapeCast S2x24x4x12x8x6x8x64 x shapeCasts_S18432x6x8x64_S2x24x4x12x8x6x8x64)
      transposes_S2x24x4x12x8x6x8x64_S2x6x64x8x24x4x12x8_0_5_7_6_1_2_3_4)
    shapeCasts_S2x6x64x8x24x4x12x8_S2x384x8x96x96

/-- The reference's value array for its temporal attention is the regrouped spatial result. -/
theorem ref_regroup (x0 x1 x2 : (⟨S2x384x8x96x96, .f32⟩ : BufTy).Contents (Elt Ideal))
    (x3 : (⟨S6x1x1, .f32⟩ : BufTy).Contents (Elt Ideal)) :
    val_main_v86 (F := Ideal) x0 x1 x2 x3 = regroup (val_main_v83 (F := Ideal) x0 x1 x2 x3) := rfl

/-- The reference's result is the ungrouped temporal result. -/
theorem ref_ungroup (x0 x1 x2 : (⟨S2x384x8x96x96, .f32⟩ : BufTy).Contents (Elt Ideal))
    (x3 x4 : (⟨S6x1x1, .f32⟩ : BufTy).Contents (Elt Ideal)) :
    val_main_v90 (F := Ideal) x0 x1 x2 x3 x4 = ungroup (val_main_v87 (F := Ideal) x0 x1 x2 x3 x4) := rfl

end Cert.Relayout

end
-- ==== Proof.KHost.lean ====
/-
  The host stretches of the kernel program, read as the reference's own operations.

  Before the first region the program re-lays the three videos into windows (split axes, permute, merge) and, once
  more, into pixels, and turns each branch's raw head scales into scales (the smaller of the raw value and a cap,
  exponentiated); between the regions it regroups the first result from windows to pixels; after the second it
  ungroups the result back to a video. Each of these is, operation for operation, what the reference program does
  to the same arrays, written with the same literal shapes, so each buffer's contents at a region's entry (and the
  result at the end) is the reference's value of the launch arrays, or the named re-layout of a region's output.
  A buffer a stretch or a region does not write is carried back unchanged to the boundary before.
-/
import proofs.«113070_j68642167324784_2_alg».proof.Proof.Gen.KernelIdeal.Frame
import proofs.«113070_j68642167324784_2_alg».proof.Proof.Gen.ReferenceIdeal.Read
import proofs.«113070_j68642167324784_2_alg».proof.Proof.Relayout

set_option maxRecDepth 16384

noncomputable section

namespace Cert.KernelIdeal.KHost

open Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The first region's entry -/

/-- The queries in windows. -/
theorem V1_q : V1 m ρ c main_v2 = Cert.ReferenceIdeal.Read.val_main_v2 (F := Ideal) (m ((c : Thread nD τ).loc main_arg0)) := by
  show StableHlo.after hostOps0 (W0 m ρ c) (Proc.devRef .tc main_v2) = _
  after_results
  rfl

/-- The keys in windows. -/
theorem V1_k : V1 m ρ c main_v5 = Cert.ReferenceIdeal.Read.val_main_v5 (F := Ideal) (m ((c : Thread nD τ).loc main_arg1)) := by
  show StableHlo.after hostOps0 (W0 m ρ c) (Proc.devRef .tc main_v5) = _
  after_results
  rfl

/-- The values in windows. -/
theorem V1_v : V1 m ρ c main_v8 = Cert.ReferenceIdeal.Read.val_main_v8 (F := Ideal) (m ((c : Thread nD τ).loc main_arg2)) := by
  show StableHlo.after hostOps0 (W0 m ρ c) (Proc.devRef .tc main_v8) = _
  after_results
  rfl

/-- The first branch's scales: the smaller of the raw value and the cap, exponentiated. -/
theorem V1_s : V1 m ρ c main_v17 = Cert.ReferenceIdeal.Read.val_main_v17 (F := Ideal) (m ((c : Thread nD τ).loc main_arg3)) := by
  show StableHlo.after hostOps0 (W0 m ρ c) (Proc.devRef .tc main_v17) = _
  after_results
  rfl

/-! ## The second region's entry

The middle stretch writes only its own three results and the first region only its output, so a buffer the first
stretch filled is carried back through both to where it was written. -/

/-- The queries in pixels. -/
theorem V3_q : V3 m ρ c main_v11 = Cert.ReferenceIdeal.Read.val_main_v11 (F := Ideal) (m ((c : Thread nD τ).loc main_arg0)) := by
  show StableHlo.after hostOps1 (W2 m ρ c) (Proc.devRef .tc main_v11) = _
  after_results
  rw [W2_of_ne m ρ c main_v11 (by decide)]
  show StableHlo.after hostOps0 (W0 m ρ c) (Proc.devRef .tc main_v11) = _
  after_results
  rfl

/-- The keys in pixels. -/
theorem V3_k : V3 m ρ c main_v14 = Cert.ReferenceIdeal.Read.val_main_v14 (F := Ideal) (m ((c : Thread nD τ).loc main_arg1)) := by
  show StableHlo.after hostOps1 (W2 m ρ c) (Proc.devRef .tc main_v14) = _
  after_results
  rw [W2_of_ne m ρ c main_v14 (by decide)]
  show StableHlo.after hostOps0 (W0 m ρ c) (Proc.devRef .tc main_v14) = _
  after_results
  rfl

/-- The second branch's scales. -/
theorem V3_s : V3 m ρ c main_v20 = Cert.ReferenceIdeal.Read.val_main_v20 (F := Ideal) (m ((c : Thread nD τ).loc main_arg4)) := by
  show StableHlo.after hostOps1 (W2 m ρ c) (Proc.devRef .tc main_v20) = _
  after_results
  rw [W2_of_ne m ρ c main_v20 (by decide)]
  show StableHlo.after hostOps0 (W0 m ρ c) (Proc.devRef .tc main_v20) = _
  after_results
  rfl

/-- The second branch's values: the first region's output, regrouped from windows to pixels. -/
theorem V3_v : V3 m ρ c main_v24 = Cert.Relayout.regroup (W2 m ρ c (Proc.devRef .tc main_v21)) := by
  show StableHlo.after hostOps1 (W2 m ρ c) (Proc.devRef .tc main_v24) = _
  after_results
  rfl

/-! ## The end of the run -/

/-- The result: the second region's output, ungrouped back to a video. -/
theorem W5_out : W5 m ρ c (Proc.devRef .tc main_v28) = Cert.Relayout.ungroup (W4 m ρ c (Proc.devRef .tc main_v25)) := by
  show StableHlo.after hostOps2 (W4 m ρ c) (Proc.devRef .tc main_v28) = _
  after_results
  rfl

end Cert.KernelIdeal.KHost

end
-- ==== Proof.RefRead.lean ====
/-
  The reference program's two attentions, read at an index.

  Each stage of the printed program is read at explicit coordinates (n, d, i, j) or (n, d, i, c): the row
  norms, the rows divided by the larger of norm and floor, the dot products of scaled rows, the head's scale,
  the row maximum, the exponentials, their row totals, the weights, and the weighted sum of the value rows.
  Read this way the result is the cosine attention of `Cert.Attend` over the query, key and value arrays of
  one group, which stay unopened here.
-/
import proofs.«113070_j68642167324784_2_alg».proof.Proof.Gen.ReferenceIdeal.Read
import proofs.«113070_j68642167324784_2_alg».proof.Proof.Attend

noncomputable section

open scoped BigOperators

namespace Cert.RefRead

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- Two rank-4 indices with the same coordinates are the same index. -/
theorem ix4_ext {n0 n1 n2 n3 : Nat} (i j : (⟨4, ![n0, n1, n2, n3]⟩ : Shape).Idx)
    (h0 : i 0 = j 0) (h1 : i 1 = j 1) (h2 : i 2 = j 2) (h3 : i 3 = j 3) : i = j := by
  funext e; match e with | ⟨0, _⟩ => exact h0 | ⟨1, _⟩ => exact h1 | ⟨2, _⟩ => exact h2 | ⟨3, _⟩ => exact h3

/-- Two rank-3 indices with the same coordinates are the same index. -/
theorem ix3_ext {n0 n1 n2 : Nat} (i j : (⟨3, ![n0, n1, n2]⟩ : Shape).Idx)
    (h0 : i 0 = j 0) (h1 : i 1 = j 1) (h2 : i 2 = j 2) : i = j := by
  funext e; match e with | ⟨0, _⟩ => exact h0 | ⟨1, _⟩ => exact h1 | ⟨2, _⟩ => exact h2

/-! ## The spatial branch: groups of 32 positions -/

section Spatial

variable (x0 x1 x2 : (⟨S2x384x8x96x96, .f32⟩ : BufTy).Contents (Elt Ideal)) (x3 : (⟨S6x1x1, .f32⟩ : BufTy).Contents (Elt Ideal))
variable (n : Fin 4608) (d : Fin 6)

/-- The sum of squares of query row `a`. -/
theorem s_qsq (a : Fin 32) :
    val_main_v22 (F := Ideal) x0 (ix3 n d a)
      = ∑ k : Fin 64, val_main_v2 (F := Ideal) x0 (ix4 n d a k) * val_main_v2 (F := Ideal) x0 (ix4 n d a k) := by
  rw [val_main_v22_apply, val_main_cst_1_apply]
  show Ideal.ofBits .f32 0x00000000#32 + _ = _
  rw [Ideal.ofBits_zero_f32, zero_add]
  refine Finset.sum_congr rfl fun k _ => ?_
  rw [val_main_v21_apply, show idx_main_v22 (ix3 n d a) k = ix4 n d a k from ix4_ext _ _ rfl rfl rfl rfl]
  rfl

/-- The query row `a` divided by the larger of its norm and the floor. -/
theorem s_qunit (a : Fin 32) (c : Fin 64) :
    val_main_v28 (F := Ideal) x0 (ix4 n d a c)
      = Cert.Attend.unit (fun c' => val_main_v2 (F := Ideal) x0 (ix4 n d a c')) c := by
  rw [val_main_v28_apply, val_main_v27_apply, val_main_v26_apply, val_main_v24_apply, val_main_v23_apply,
    val_main_v25_apply, val_main_cst_2_apply,
    show idx_main_v23 (idx_main_v27 (ix4 n d a c)) = ix3 n d a from ix3_ext _ _ rfl rfl rfl, s_qsq]
  rfl

/-- The sum of squares of key row `a`. -/
theorem s_ksq (a : Fin 32) :
    val_main_v30 (F := Ideal) x1 (ix3 n d a)
      = ∑ k : Fin 64, val_main_v5 (F := Ideal) x1 (ix4 n d a k) * val_main_v5 (F := Ideal) x1 (ix4 n d a k) := by
  rw [val_main_v30_apply, val_main_cst_3_apply]
  show Ideal.ofBits .f32 0x00000000#32 + _ = _
  rw [Ideal.ofBits_zero_f32, zero_add]
  refine Finset.sum_congr rfl fun k _ => ?_
  rw [val_main_v29_apply, show idx_main_v30 (ix3 n d a) k = ix4 n d a k from ix4_ext _ _ rfl rfl rfl rfl]
  rfl

/-- The key row `a` divided by the larger of its norm and the floor. -/
theorem s_kunit (a : Fin 32) (c : Fin 64) :
    val_main_v36 (F := Ideal) x1 (ix4 n d a c)
      = Cert.Attend.unit (fun c' => val_main_v5 (F := Ideal) x1 (ix4 n d a c')) c := by
  rw [val_main_v36_apply, val_main_v35_apply, val_main_v34_apply, val_main_v32_apply, val_main_v31_apply,
    val_main_v33_apply, val_main_cst_4_apply,
    show idx_main_v31 (idx_main_v35 (ix4 n d a c)) = ix3 n d a from ix3_ext _ _ rfl rfl rfl, s_ksq]
  rfl

/-- The dot product of scaled query row `i` and scaled key row `j`. -/
theorem s_dot (i j : Fin 32) :
    val_main_v37 (F := Ideal) x0 x1 (ix4 n d i j)
      = ∑ c : Fin 64, Cert.Attend.unit (fun c' => val_main_v2 (F := Ideal) x0 (ix4 n d i c')) c
          * Cert.Attend.unit (fun c' => val_main_v5 (F := Ideal) x1 (ix4 n d j c')) c := by
  rw [val_main_v37_apply]
  refine Finset.sum_congr rfl fun c _ => ?_
  rw [show lidx_main_v37 (ix4 n d i j) c = ix4 n d i c from ix4_ext _ _ rfl rfl rfl rfl,
    show ridx_main_v37 (ix4 n d i j) c = ix4 n d j c from ix4_ext _ _ rfl rfl rfl rfl, s_qunit, s_kunit]

/-- The scale spread over a group is the head's scale. -/
theorem s_scale (i j : Fin 32) :
    val_main_v39 (F := Ideal) x3 (ix4 n d i j) = val_main_v17 (F := Ideal) x3 (ix3 d 0 0) := by
  rw [val_main_v39_apply, val_main_v38_apply]
  exact congrArg _ (ix3_ext _ _ rfl rfl rfl)

/-- The logit of positions (i, j). -/
theorem s_logit (i j : Fin 32) :
    val_main_v40 (F := Ideal) x0 x1 x3 (ix4 n d i j)
      = Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i j := by
  rw [val_main_v40_apply, s_dot, s_scale]
  rfl

/-- The reduced index (n, d, i) with position `k` put back on the last axis is (n, d, i, k). -/
theorem s_lift (i : Fin 32) (h : S4608x6x32x32.Reduces [3] S4608x6x32) (k : Fin (S4608x6x32x32.size 3)) :
    h.lift (ix3 n d i) k = ix4 n d i (⟨k.val, k.isLt⟩ : Fin 32) := by
  funext c; apply Fin.ext
  match c with | ⟨0, _⟩ => rfl | ⟨1, _⟩ => rfl | ⟨2, _⟩ => rfl | ⟨3, _⟩ => rfl

/-- The maximum of row `i` of the logits, from minus infinity. -/
theorem s_rowmax (i : Fin 32) :
    val_main_v41 (F := Ideal) x0 x1 x3 (ix3 n d i)
      = (Finset.univ : Finset (Fin 32)).fold max Cert.Attend.bottom
          (fun j => val_main_v40 (F := Ideal) x0 x1 x3 (ix4 n d i j)) := by
  have h : S4608x6x32x32.Reduces [3] S4608x6x32 := by decide
  unfold val_main_v41
  rw [Host.reduce_eq_fold_single FloatOps.maximumf _ _ reducesTo_S4608x6x32x32_S4608x6x32_d3 h h_S_]
  have hf : (val_main_v40 (F := Ideal) x0 x1 x3 ∘ h.lift (ix3 n d i))
      = fun j : Fin 32 => val_main_v40 (F := Ideal) x0 x1 x3 (ix4 n d i j) :=
    funext fun k => congrArg (val_main_v40 (F := Ideal) x0 x1 x3) (s_lift n d i h k)
  exact congrArg (fun f => Finset.fold max Cert.Attend.bottom f (Finset.univ : Finset (Fin 32))) hf

/-- The peak of row `i`. -/
theorem s_peak (i : Fin 32) :
    val_main_v43 (F := Ideal) x0 x1 x3 (ix3 n d i)
      = Cert.Attend.peak (Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i) := by
  rw [val_main_v43_apply, val_main_v42_apply, val_main_cst_6_apply, s_rowmax]
  have hf : (fun j : Fin 32 => val_main_v40 (F := Ideal) x0 x1 x3 (ix4 n d i j))
      = Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i := funext fun j => s_logit x0 x1 x3 n d i j
  rw [hf]
  rfl

/-- The exponential of a logit less its row's peak. -/
theorem s_exp (i j : Fin 32) :
    val_main_v47 (F := Ideal) x0 x1 x3 (ix4 n d i j)
      = Ideal.exp (Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i j
          - Cert.Attend.peak (Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i)) := by
  rw [val_main_v47_apply, val_main_v46_apply, val_main_v45_apply, val_main_v44_apply, s_logit,
    show idx_main_v44 (idx_main_v45 (ix4 n d i j)) = ix3 n d i from ix3_ext _ _ rfl rfl rfl, s_peak]
  rfl

/-- The total of row `i` of the exponentials. -/
theorem s_total (i : Fin 32) :
    val_main_v48 (F := Ideal) x0 x1 x3 (ix3 n d i)
      = ∑ j : Fin 32, Ideal.exp (Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i j
          - Cert.Attend.peak (Cert.Attend.logit (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i)) := by
  rw [val_main_v48_apply, val_main_cst_7_apply]
  show Ideal.ofBits .f32 0x00000000#32 + _ = _
  rw [Ideal.ofBits_zero_f32, zero_add]
  refine Finset.sum_congr rfl fun j _ => ?_
  rw [show idx_main_v48 (ix3 n d i) j = ix4 n d i j from ix4_ext _ _ rfl rfl rfl rfl, s_exp]

/-- The weight position `i` gives position `j`. -/
theorem s_weight (i j : Fin 32) :
    val_main_v51 (F := Ideal) x0 x1 x3 (ix4 n d i j)
      = Cert.Attend.weight (fun (a' : Fin 32) (c' : Fin 64) => val_main_v2 (F := Ideal) x0 (ix4 n d a' c')) (fun (a' : Fin 32) (c' : Fin 64) => val_main_v5 (F := Ideal) x1 (ix4 n d a' c')) (val_main_v17 (F := Ideal) x3 (ix3 d 0 0)) i j := by
  rw [val_main_v51_apply, val_main_v50_apply, val_main_v49_apply, s_exp,
    show idx_main_v49 (idx_main_v50 (ix4 n d i j)) = ix3 n d i from ix3_ext _ _ rfl rfl rfl, s_total]
  rfl

/-- The spatial attention at window `n`, head `d`, position `a`, channel `c` is the cosine attention of the window's query, key and value rows. -/
theorem spatial (a : Fin 32) (c : Fin 64) :
    val_main_v83 (F := Ideal) x0 x1 x2 x3 (ix4 n d a c)
      = Cert.Attend.attend (fun (a' : Fin 32) (c' : Fin 64) => val_main_v2 (F := Ideal) x0 (ix4 n d a' c')) (fun (a' : Fin 32) (c' : Fin 64) => val_main_v5 (F := Ideal) x1 (ix4 n d a' c')) (fun (a' : Fin 32) (c' : Fin 64) => val_main_v8 (F := Ideal) x2 (ix4 n d a' c')) (val_main_v17 (F := Ideal) x3 (ix3 d 0 0)) a c := by
  unfold Cert.Attend.attend
  rw [val_main_v83_apply]
  refine Finset.sum_congr rfl fun j _ => ?_
  rw [show lidx_main_v83 (ix4 n d a c) j = ix4 n d a j from ix4_ext _ _ rfl rfl rfl rfl,
    show ridx_main_v83 (ix4 n d a c) j = ix4 n d j c from ix4_ext _ _ rfl rfl rfl rfl, s_weight]

end Spatial

/-! ## The temporal branch: groups of 8 positions -/

section Temporal

variable (x0 x1 x2 : (⟨S2x384x8x96x96, .f32⟩ : BufTy).Contents (Elt Ideal)) (x3 x4 : (⟨S6x1x1, .f32⟩ : BufTy).Contents (Elt Ideal))
variable (n : Fin 18432) (d : Fin 6)

/-- The sum of squares of query row `a`. -/
theorem t_qsq (a : Fin 8) :
    val_main_v53 (F := Ideal) x0 (ix3 n d a)
      = ∑ k : Fin 64, val_main_v11 (F := Ideal) x0 (ix4 n d a k) * val_main_v11 (F := Ideal) x0 (ix4 n d a k) := by
  rw [val_main_v53_apply, val_main_cst_8_apply]
  show Ideal.ofBits .f32 0x00000000#32 + _ = _
  rw [Ideal.ofBits_zero_f32, zero_add]
  refine Finset.sum_congr rfl fun k _ => ?_
  rw [val_main_v52_apply, show idx_main_v53 (ix3 n d a) k = ix4 n d a k from ix4_ext _ _ rfl rfl rfl rfl]
  rfl

/-- The query row `a` divided by the larger of its norm and the floor. -/
theorem t_qunit (a : Fin 8) (c : Fin 64) :
    val_main_v59 (F := Ideal) x0 (ix4 n d a c)
      = Cert.Attend.unit (fun c' => val_main_v11 (F := Ideal) x0 (ix4 n d a c')) c := by
  rw [val_main_v59_apply, val_main_v58_apply, val_main_v57_apply, val_main_v55_apply, val_main_v54_apply,
    val_main_v56_apply, val_main_cst_9_apply,
    show idx_main_v54 (idx_main_v58 (ix4 n d a c)) = ix3 n d a from ix3_ext _ _ rfl rfl rfl, t_qsq]
  rfl

/-- The sum of squares of key row `a`. -/
theorem t_ksq (a : Fin 8) :
    val_main_v61 (F := Ideal) x1 (ix3 n d a)
      = ∑ k : Fin 64, val_main_v14 (F := Ideal) x1 (ix4 n d a k) * val_main_v14 (F := Ideal) x1 (ix4 n d a k) := by
  rw [val_main_v61_apply, val_main_cst_10_apply]
  show Ideal.ofBits .f32 0x00000000#32 + _ = _
  rw [Ideal.ofBits_zero_f32, zero_add]
  refine Finset.sum_congr rfl fun k _ => ?_
  rw [val_main_v60_apply, show idx_main_v61 (ix3 n d a) k = ix4 n d a k from ix4_ext _ _ rfl rfl rfl rfl]
  rfl

/-- The key row `a` divided by the larger of its norm and the floor. -/
theorem t_kunit (a : Fin 8) (c : Fin 64) :
    val_main_v67 (F := Ideal) x1 (ix4 n d a c)
      = Cert.Attend.unit (fun c' => val_main_v14 (F := Ideal) x1 (ix4 n d a c')) c := by
  rw [val_main_v67_apply, val_main_v66_apply, val_main_v65_apply, val_main_v63_apply, val_main_v62_apply,
    val_main_v64_apply, val_main_cst_11_apply,
    show idx_main_v62 (idx_main_v66 (ix4 n d a c)) = ix3 n d a from ix3_ext _ _ rfl rfl rfl, t_ksq]
  rfl

/-- The dot product of scaled query row `i` and scaled key row `j`. -/
theorem t_dot (i j : Fin 8) :
    val_main_v68 (F := Ideal) x0 x1 (ix4 n d i j)
      = ∑ c : Fin 64, Cert.Attend.unit (fun c' => val_main_v11 (F := Ideal) x0 (ix4 n d i c')) c
          * Cert.Attend.unit (fun c' => val_main_v14 (F := Ideal) x1 (ix4 n d j c')) c := by
  rw [val_main_v68_apply]
  refine Finset.sum_congr rfl fun c _ => ?_
  rw [show lidx_main_v68 (ix4 n d i j) c = ix4 n d i c from ix4_ext _ _ rfl rfl rfl rfl,
    show ridx_main_v68 (ix4 n d i j) c = ix4 n d j c from ix4_ext _ _ rfl rfl rfl rfl, t_qunit, t_kunit]

/-- The scale spread over a group is the head's scale. -/
theorem t_scale (i j : Fin 8) :
    val_main_v70 (F := Ideal) x4 (ix4 n d i j) = val_main_v20 (F := Ideal) x4 (ix3 d 0 0) := by
  rw [val_main_v70_apply, val_main_v69_apply]
  exact congrArg _ (ix3_ext _ _ rfl rfl rfl)

/-- The logit of positions (i, j). -/
theorem t_logit (i j : Fin 8) :
    val_main_v71 (F := Ideal) x0 x1 x4 (ix4 n d i j)
      = Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i j := by
  rw [val_main_v71_apply, t_dot, t_scale]
  rfl

/-- The reduced index (n, d, i) with position `k` put back on the last axis is (n, d, i, k). -/
theorem t_lift (i : Fin 8) (h : S18432x6x8x8.Reduces [3] S18432x6x8) (k : Fin (S18432x6x8x8.size 3)) :
    h.lift (ix3 n d i) k = ix4 n d i (⟨k.val, k.isLt⟩ : Fin 8) := by
  funext c; apply Fin.ext
  match c with | ⟨0, _⟩ => rfl | ⟨1, _⟩ => rfl | ⟨2, _⟩ => rfl | ⟨3, _⟩ => rfl

/-- The maximum of row `i` of the logits, from minus infinity. -/
theorem t_rowmax (i : Fin 8) :
    val_main_v72 (F := Ideal) x0 x1 x4 (ix3 n d i)
      = (Finset.univ : Finset (Fin 8)).fold max Cert.Attend.bottom
          (fun j => val_main_v71 (F := Ideal) x0 x1 x4 (ix4 n d i j)) := by
  have h : S18432x6x8x8.Reduces [3] S18432x6x8 := by decide
  unfold val_main_v72
  rw [Host.reduce_eq_fold_single FloatOps.maximumf _ _ reducesTo_S18432x6x8x8_S18432x6x8_d3 h h_S_]
  have hf : (val_main_v71 (F := Ideal) x0 x1 x4 ∘ h.lift (ix3 n d i))
      = fun j : Fin 8 => val_main_v71 (F := Ideal) x0 x1 x4 (ix4 n d i j) :=
    funext fun k => congrArg (val_main_v71 (F := Ideal) x0 x1 x4) (t_lift n d i h k)
  exact congrArg (fun f => Finset.fold max Cert.Attend.bottom f (Finset.univ : Finset (Fin 8))) hf

/-- The peak of row `i`. -/
theorem t_peak (i : Fin 8) :
    val_main_v74 (F := Ideal) x0 x1 x4 (ix3 n d i)
      = Cert.Attend.peak (Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i) := by
  rw [val_main_v74_apply, val_main_v73_apply, val_main_cst_13_apply, t_rowmax]
  have hf : (fun j : Fin 8 => val_main_v71 (F := Ideal) x0 x1 x4 (ix4 n d i j))
      = Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i := funext fun j => t_logit x0 x1 x4 n d i j
  rw [hf]
  rfl

/-- The exponential of a logit less its row's peak. -/
theorem t_exp (i j : Fin 8) :
    val_main_v78 (F := Ideal) x0 x1 x4 (ix4 n d i j)
      = Ideal.exp (Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i j
          - Cert.Attend.peak (Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i)) := by
  rw [val_main_v78_apply, val_main_v77_apply, val_main_v76_apply, val_main_v75_apply, t_logit,
    show idx_main_v75 (idx_main_v76 (ix4 n d i j)) = ix3 n d i from ix3_ext _ _ rfl rfl rfl, t_peak]
  rfl

/-- The total of row `i` of the exponentials. -/
theorem t_total (i : Fin 8) :
    val_main_v79 (F := Ideal) x0 x1 x4 (ix3 n d i)
      = ∑ j : Fin 8, Ideal.exp (Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i j
          - Cert.Attend.peak (Cert.Attend.logit (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i)) := by
  rw [val_main_v79_apply, val_main_cst_14_apply]
  show Ideal.ofBits .f32 0x00000000#32 + _ = _
  rw [Ideal.ofBits_zero_f32, zero_add]
  refine Finset.sum_congr rfl fun j _ => ?_
  rw [show idx_main_v79 (ix3 n d i) j = ix4 n d i j from ix4_ext _ _ rfl rfl rfl rfl, t_exp]

/-- The weight position `i` gives position `j`. -/
theorem t_weight (i j : Fin 8) :
    val_main_v82 (F := Ideal) x0 x1 x4 (ix4 n d i j)
      = Cert.Attend.weight (fun (a' : Fin 8) (c' : Fin 64) => val_main_v11 (F := Ideal) x0 (ix4 n d a' c')) (fun (a' : Fin 8) (c' : Fin 64) => val_main_v14 (F := Ideal) x1 (ix4 n d a' c')) (val_main_v20 (F := Ideal) x4 (ix3 d 0 0)) i j := by
  rw [val_main_v82_apply, val_main_v81_apply, val_main_v80_apply, t_exp,
    show idx_main_v80 (idx_main_v81 (ix4 n d i j)) = ix3 n d i from ix3_ext _ _ rfl rfl rfl, t_total]
  rfl

/-- The temporal attention at pixel `n`, head `d`, frame `a`, channel `c` is the cosine attention of the pixel's query and key rows over the spatial branch's result rows. -/
theorem temporal (a : Fin 8) (c : Fin 64) :
    val_main_v87 (F := Ideal) x0 x1 x2 x3 x4 (ix4 n d a c)
      = Cert.Attend.attend (fun (a' : Fin 8) (c' : Fin 64) => val_main_v11 (F := Ideal) x0 (ix4 n d a' c')) (fun (a' : Fin 8) (c' : Fin 64) => val_main_v14 (F := Ideal) x1 (ix4 n d a' c')) (fun (a' : Fin 8) (c' : Fin 64) => val_main_v86 (F := Ideal) x0 x1 x2 x3 (ix4 n d a' c')) (val_main_v20 (F := Ideal) x4 (ix3 d 0 0)) a c := by
  unfold Cert.Attend.attend
  rw [val_main_v87_apply]
  refine Finset.sum_congr rfl fun j _ => ?_
  rw [show lidx_main_v87 (ix4 n d a c) j = ix4 n d a j from ix4_ext _ _ rfl rfl rfl rfl,
    show ridx_main_v87 (ix4 n d a c) j = ix4 n d j c from ix4_ext _ _ rfl rfl rfl rfl, t_weight]

end Temporal

end Cert.RefRead

end
-- ==== Proof.RefValue.lean ====
/-
  The reference's result as one term: the video layout of temporal attention over the regrouped result of spatial
  attention.  Each attention stage of the reference, read entry by entry, is attention within the entry's own group
  and head; so as whole arrays the two stages are `Cert.Attend.spread` of their inputs, and the operations
  between and after them are the two re-layouts.
-/
import proofs.«113070_j68642167324784_2_alg».proof.Proof.RefRead
import proofs.«113070_j68642167324784_2_alg».proof.Proof.Relayout

noncomputable section

namespace Cert.RefValue

open Cert.ReferenceIdeal Cert.ReferenceIdeal.Read Idealize.ShloMosaic Idealize.ShloMosaic.ValueIdx

variable (x0 x1 x2 : (⟨S2x384x8x96x96, .f32⟩ : BufTy).Contents (Elt Ideal))
variable (x3 x4 : (⟨S6x1x1, .f32⟩ : BufTy).Contents (Elt Ideal))

/-- The spatial stage, as a whole array. -/
theorem spatial :
    val_main_v83 (F := Ideal) x0 x1 x2 x3
      = Cert.Attend.spread 4608 32 (val_main_v2 (F := Ideal) x0) (val_main_v5 (F := Ideal) x1)
          (val_main_v8 (F := Ideal) x2) (val_main_v17 (F := Ideal) x3) := by
  funext i
  obtain ⟨n, d, a, c, rfl⟩ : ∃ (n : Fin 4608) (d : Fin 6) (a : Fin 32) (c : Fin 64), i = ix4 n d a c :=
    ⟨i 0, i 1, i 2, i 3, eq_ix4 i⟩
  rw [Cert.RefRead.spatial, Cert.Attend.spread_ix4]

/-- The temporal stage, as a whole array. -/
theorem temporal :
    val_main_v87 (F := Ideal) x0 x1 x2 x3 x4
      = Cert.Attend.spread 18432 8 (val_main_v11 (F := Ideal) x0) (val_main_v14 (F := Ideal) x1)
          (val_main_v86 (F := Ideal) x0 x1 x2 x3) (val_main_v20 (F := Ideal) x4) := by
  funext i
  obtain ⟨n, d, a, c, rfl⟩ : ∃ (n : Fin 18432) (d : Fin 6) (a : Fin 8) (c : Fin 64), i = ix4 n d a c :=
    ⟨i 0, i 1, i 2, i 3, eq_ix4 i⟩
  rw [Cert.RefRead.temporal, Cert.Attend.spread_ix4]

/-- The reference's result. -/
theorem result :
    val_main_v90 (F := Ideal) x0 x1 x2 x3 x4
      = Cert.Relayout.ungroup (Cert.Attend.spread 18432 8 (val_main_v11 (F := Ideal) x0) (val_main_v14 (F := Ideal) x1)
          (Cert.Relayout.regroup (Cert.Attend.spread 4608 32 (val_main_v2 (F := Ideal) x0) (val_main_v5 (F := Ideal) x1)
            (val_main_v8 (F := Ideal) x2) (val_main_v17 (F := Ideal) x3)))
          (val_main_v20 (F := Ideal) x4)) := by
  rw [Cert.Relayout.ref_ungroup, temporal, Cert.Relayout.ref_regroup, spatial]

end Cert.RefValue

end
-- ==== Proof.KValue.lean ====
/-
  The kernel's result as the reference's term.

  Region 0's output array is spatial attention of the region's four input arrays, region 1's is temporal attention
  of its four, and the host stretches before, between and after the regions are the reference's own layout
  operations and scale computation on the same arguments.  Substituting the boundary contents into one another,
  the kernel's result is the video layout of temporal attention over the regrouped spatial attention of the
  arguments — the reference's result term.
-/
import proofs.«113070_j68642167324784_2_alg».proof.Proof.Blocks
import proofs.«113070_j68642167324784_2_alg».proof.Proof.KerRead
import proofs.«113070_j68642167324784_2_alg».proof.Proof.KHost
import proofs.«113070_j68642167324784_2_alg».proof.Proof.RefValue

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After region 0 its output array is spatial attention of the arrays the region was entered with. -/
theorem region0_out (c : Dev nD) :
    W2 m ρ c (Proc.devRef .tc main_v21)
      = Cert.Attend.spread 4608 32 (V1 m ρ c main_v2) (V1 m ρ c main_v5) (V1 m ρ c main_v8) (V1 m ρ c main_v17) :=
  (W2_arr m ρ c 4).trans (Blocks.final0 (V1 m ρ) Cert.KerRead.region0 c)

/-- After region 1 its output array is temporal attention of the arrays the region was entered with. -/
theorem region1_out (c : Dev nD) :
    W4 m ρ c (Proc.devRef .tc main_v25)
      = Cert.Attend.spread 18432 8 (V3 m ρ c main_v11) (V3 m ρ c main_v14) (V3 m ρ c main_v24) (V3 m ρ c main_v20) :=
  (W4_arr m ρ c 4).trans (Blocks.final1 (V3 m ρ) Cert.KerRead.region1 c)

/-- The kernel's result buffer at the end is the reference's result term of the kernel's own arguments. -/
theorem result (c : Dev nD) :
    W5 m ρ c (Proc.devRef .tc main_v28)
      = Cert.ReferenceIdeal.Read.val_main_v90 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  rw [Cert.RefValue.result, KHost.W5_out, region1_out, KHost.V3_q, KHost.V3_k, KHost.V3_s, KHost.V3_v, region0_out,
    KHost.V1_q, KHost.V1_k, KHost.V1_v, KHost.V1_s]

end Cert.KernelIdeal.KValue

end
-- ==== Proof.lean ====
/-
  Windowed cosine attention in two stages (spatial over 4×8 windows, then temporal over the 8 frames of each pixel),
  computed by two pipelined kernels with layout changes on the host around them, against the same computation
  written with whole-array operations.

  Over the extended reals the two programs are one function of their arguments.  Each kernel grid point normalises
  its block's query and key rows, forms the scaled cosine logits with a batched matrix product over the merged
  (window, head) axis, turns each row into weights by subtracting its peak, exponentiating and dividing by the
  row's total, and takes the weighted sum of the value rows with a second batched product; the reference does the
  same with one whole-array operation per step.  Read entry by entry, both are `Cert.Attend.attend` within the
  entry's own window (or pixel) and head: the sums are finite sums and the maxima folds of `max`, so no order
  of evaluation and no finiteness of the entries enters (the precondition is not used).  The kernels' blocks are
  rows of the whole arrays and tile them, so each region leaves attention of its whole input arrays
  (`Blocks.final0`, `final1`); the host operations before, between and after the regions are the reference's own
  (`KHost`); hence the kernel's result buffer ends at the reference's result term of the same arguments
  (`KValue.result`).  The idealised kernel is the kernel's own text read over the extended reals (no rewrite was
  applied), so that conjunct is trivial.
-/
import proofs.«113070_j68642167324784_2_alg».proof.Defs
import proofs.«113070_j68642167324784_2_alg».proof.Proof.Gen.Kernel
import proofs.«113070_j68642167324784_2_alg».proof.Proof.Gen.Kernel.Skeleton
import proofs.«113070_j68642167324784_2_alg».proof.Proof.Gen.Kernel.Launch
import proofs.«113070_j68642167324784_2_alg».proof.Proof.Gen.Kernel.Points
import proofs.«113070_j68642167324784_2_alg».proof.Proof.Gen.Kernel.Frame
import proofs.«113070_j68642167324784_2_alg».proof.Proof.Gen.KernelIdeal
import proofs.«113070_j68642167324784_2_alg».proof.Proof.Gen.KernelIdeal.Skeleton
import proofs.«113070_j68642167324784_2_alg».proof.Proof.Gen.KernelIdeal.Launch
import proofs.«113070_j68642167324784_2_alg».proof.Proof.Gen.KernelIdeal.Points
import proofs.«113070_j68642167324784_2_alg».proof.Proof.Gen.KernelIdeal.Frame
import proofs.«113070_j68642167324784_2_alg».proof.Proof.Gen.ReferenceIdeal
import proofs.«113070_j68642167324784_2_alg».proof.Proof.Gen.ReferenceIdeal.Run
import proofs.«113070_j68642167324784_2_alg».proof.Proof.Gen.ReferenceIdeal.Read
import proofs.«113070_j68642167324784_2_alg».proof.Proof.Gen.Pre_finite_inputs
import proofs.«113070_j68642167324784_2_alg».proof.Proof.KRun
import proofs.«113070_j68642167324784_2_alg».proof.Proof.KValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.result m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v90_eq, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
